-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64x2 .f32) (main_arg15 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x2 .f32 := Host.absf main_arg14
  let main_cst_24 : FVec F S_ .f32 := constant S_ .f32 0x7F800000#32
  let main_v65 : FVec F S64x2 .f32 := broadcastInDim S64x2 ![] bcast_S_S64x2 main_cst_24
  let main_v66 : IVec S64x2 1 := cmpf .olt main_v64 main_v65
  let main_c_25 : IVec S_ 1 := constantI S_ 1 1#1
  let main_v67 : IVec S_ 1 := (fun x v => Host.reduce IntOp.andi x v reducesTo_S64x2_S_d0_1 h_S_) main_v66 main_c_25
  fn_part4 (F := F) main_arg15 main_v63 main_v67

def fn_part2 {F : FTy → Type} [FloatOps F] (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x512 .f32) (main_arg1 : IVec S2x1600000 32) (main_arg2 : FVec F S512x128 .f32) (main_arg3 : FVec F S128 .f32) (main_arg4 : FVec F S128 .f32) (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S2000x512 : Shape := ⟨2, ![2000, 512]⟩
abbrev S2000x128 : Shape := ⟨2, ![2000, 128]⟩
abbrev S1600000x128 : Shape := ⟨2, ![1600000, 128]⟩
abbrev S100000x1 : Shape := ⟨2, ![100000, 1]⟩
abbrev S1x128 : Shape := ⟨2, ![1, 128]⟩
abbrev S2000x1 : Shape := ⟨2, ![2000, 1]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩
abbrev S100000x2 : Shape := ⟨2, ![100000, 2]⟩
abbrev S2000x2 : Shape := ⟨2, ![2000, 2]⟩
abbrev S1600000x2 : Shape := ⟨2, ![1600000, 2]⟩
abbrev S1x2 : Shape := ⟨2, ![1, 2]⟩
abbrev S2000 : Shape := ⟨1, ![2000]⟩

abbrev nBuf : Space → Nat
  | .hbm => 120
  | .vmem => 50
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x2, .f32⟩
  | .hbm, ⟨15, _⟩ => ⟨S2, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S1600000, .f32⟩
  | .hbm, ⟨49, _⟩ => ⟨S100000, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x1, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x64, .f32⟩
  | .hbm, ⟨84, _⟩ => ⟨S1600000x1, .f32⟩
  | .hbm, ⟨85, _⟩ => ⟨S1600000x64, .f32⟩
  | .hbm, ⟨86, _⟩ => ⟨S1600000x64, .f32⟩
  | .hbm, ⟨87, _⟩ => ⟨S_, .f32⟩
  | .hbm, ⟨88, _⟩ => ⟨S100000x64, .f32⟩
  | .hbm, ⟨89, _⟩ => ⟨S1600000x1, .i32⟩
  | .hbm, ⟨90, _⟩ => ⟨S100000x64, .f32⟩
  | .hbm, ⟨91, _⟩ => ⟨S100000x1, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S100000x2, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x2, .f32⟩
  | .hbm, ⟨110, _⟩ => ⟨S1600000x1, .f32⟩
  | .hbm, ⟨111, _⟩ => ⟨S1600000x2, .f32⟩
  | .hbm, ⟨112, _⟩ => ⟨S1600000x2, .f32⟩
  | .hbm, ⟨113, _⟩ => ⟨S_, .f32⟩
  | .hbm, ⟨114, _⟩ => ⟨S100000x2, .f32⟩
  | .hbm, ⟨115, _⟩ => ⟨S1600000x1, .i32⟩
  | .hbm, ⟨116, _⟩ => ⟨S100000x2, .f32⟩
  | .hbm, ⟨117, _⟩ => ⟨S100000x1, .f32⟩
  | .hbm, ⟨118, _⟩ => ⟨S1x2, .f32⟩
  | .hbm, ⟨119, _⟩ => ⟨S100000x2, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x1, .f32⟩
  | .local _ .vmem, ⟨28, _⟩ => ⟨S2000x1, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S64x2, .f32⟩
  | .local _ .vmem, ⟨39, _⟩ => ⟨S2000x2, .f32⟩
  | .local _ .vmem, ⟨40, _⟩ => ⟨S2000x2, .f32⟩
  | .local _ .vmem, ⟨41, _⟩ => ⟨S2000x2, .f32⟩
  | .local _ .vmem, ⟨42, _⟩ => ⟨S2000x2, .f32⟩
  | .local _ .vmem, ⟨43, _⟩ => ⟨S2000x2, .f32⟩
  | .local _ .vmem, ⟨44, _⟩ => ⟨S2000x2, .f32⟩
  | .local _ .vmem, ⟨45, _⟩ => ⟨S2000x1, .f32⟩
  | .local _ .vmem, ⟨46, _⟩ => ⟨S2000x1, .f32⟩
  | .local _ .vmem, ⟨47, _⟩ => ⟨S1x2, .f32⟩
  | .local _ .vmem, ⟨48, _⟩ => ⟨S2000x2, .f32⟩
  | .local _ .vmem, ⟨49, _⟩ => ⟨S2000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_11 : Ref sig .tc := ⟨.hbm, 101, rfl⟩
abbrev main_v72 : Ref sig .tc := ⟨.hbm, 102, rfl⟩
abbrev main_v73 : Ref sig .tc := ⟨.hbm, 103, rfl⟩
abbrev main_c_12 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_13 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x2 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S100000x128_S100000x64_0_0 : S100000x128.Slices ![0, 0] S100000x64
  inb_S64x2_S64x2_0_0 : ∀ a, (![0, 0] : Fin 2 → Nat) a + S64x2.size a ≤ S64x2.size a
  h_S64x2 : 0 < S64x2.numel
  inb_S2000x2_S2000x2_0_0 : ∀ a, (![0, 0] : Fin 2 → Nat) a + S2000x2.size a ≤ S2000x2.size a
  h_S2000x2 : 0 < S2000x2.numel
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  shapeCasts_S2_S1x2 : S2.ShapeCasts S1x2
  shapeCasts_S2000x2_S2000x2 : S2000x2.ShapeCasts S2000x2
  broadcasts_S2000x1_S2000x2 : S2000x1.Broadcasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x2_S2000x2_1_0_0_1_n_n_wf : DotDims.WF S2000x64 S64x2 S2000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x64.size a ≤ S100000x64.size a
  hwx3_8 : ∀ i : grid3.Coords, EltTy.bits .f32 = 32 ∨ (Rect.block (s := S100000x64) S2000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x2.size a ≤ S100000x2.size a
  hwx4_2 : ∀ i : grid4.Coords, EltTy.bits .f32 = 32 ∨ (Rect.block (s := S100000x2) S2000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x2.size a ≤ S100000x2.size a
  hwx5_0 : ∀ i : grid5.Coords, EltTy.bits .f32 = 32 ∨ (Rect.block (s := S100000x2) S2000x2.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x2.size a ≤ S100000x2.size a
  hwx5_1 : ∀ i : grid5.Coords, EltTy.bits .f32 = 32 ∨ (Rect.block (s := S100000x2) S2000x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x2.size a ≤ S100000x2.size a
  hwx5_4 : ∀ i : grid5.Coords, EltTy.bits .f32 = 32 ∨ (Rect.block (s := S100000x2) S2000x2.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v67) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v68) S2000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v70) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S2000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S2000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S2000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v85) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v87) S2000x2.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S100000x2 : Shape := ⟨2, ![100000, 2]⟩
abbrev S1600000x2 : Shape := ⟨2, ![1600000, 2]⟩
abbrev S1x2 : Shape := ⟨2, ![1, 2]⟩

abbrev nBuf : Space → Nat
  | .hbm => 177
  | .vmem => 0
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64, .f32⟩
  | 13 => ⟨S64, .f32⟩
  | 14 => ⟨S64x2, .f32⟩
  | 15 => ⟨S2, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S100000, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x1, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S1600000x1, .f32⟩
  | 104 => ⟨S1600000x64, .f32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S100000x1, .f32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S64, .f32⟩
  | 122 => ⟨S64, .f32⟩
  | 123 => ⟨S64, .f32⟩
  | 124 => ⟨S1x64, .f32⟩
  | 125 => ⟨S100000x64, .f32⟩
  | 126 => ⟨S100000x64, .f32⟩
  | 127 => ⟨S1x64, .f32⟩
  | _ => ⟨S100000x512, .f32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x64, .f32⟩
  | 9 => ⟨S100000x64, .f32⟩
  | 10 => ⟨S100000x2, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x2, .f32⟩
  | 20 => ⟨S1600000x1, .f32⟩
  | 21 => ⟨S1600000x2, .f32⟩
  | 22 => ⟨S1600000x2, .f32⟩
  | 23 => ⟨S_, .f32⟩
  | 24 => ⟨S100000x2, .f32⟩
  | 25 => ⟨S1600000x1, .i32⟩
  | 26 => ⟨S100000x2, .f32⟩
  | 27 => ⟨S100000x1, .f32⟩
  | 28 => ⟨S100000x2, .f32⟩
  | 29 => ⟨S100000x2, .f32⟩
  | 30 => ⟨S100000x2, .f32⟩
  | 31 => ⟨S1x2, .f32⟩
  | 32 => ⟨S100000x2, .f32⟩
  | 33 => ⟨S100000x2, .f32⟩
  | 34 => ⟨S_, .f32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x2, .f32⟩
  | 41 => ⟨S100000x2, .f32⟩
  | 42 => ⟨S100000x2, .f32⟩
  | 43 => ⟨S_, .f32⟩
  | 44 => ⟨S100000, .f32⟩
  | 45 => ⟨S100000x1, .f32⟩
  | 46 => ⟨S100000x1, .f32⟩
  | 47 => ⟨S100000x2, .f32⟩
  | 48 => ⟨S100000x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call0_cst : Ref sig .tc := ⟨.hbm, 90, rfl⟩
abbrev main_call0_v0 : Ref sig .tc := ⟨.hbm, 91, rfl⟩
abbrev main_v63 : Ref sig .tc := ⟨.hbm, 92, rfl⟩
abbrev main_v64 : Ref sig .tc := ⟨.hbm, 93, rfl⟩
abbrev main_c_9 : Ref sig .tc := ⟨.hbm, 94, rfl⟩
abbrev main_v65 : Ref sig .tc := ⟨.hbm, 95, rfl⟩
abbrev main_v66 : Ref sig .tc := ⟨.hbm, 96, rfl⟩
abbrev main_c_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_12 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_call1_cst : Ref sig .tc := ⟨.hbm, 133, rfl⟩
abbrev main_call1_v0 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_13 : Ref sig .tc := ⟨.hbm, 139, rfl⟩
abbrev main_v104 : Ref sig .tc := ⟨.hbm, 140, rfl⟩
abbrev main_v105 : Ref sig .tc := ⟨.hbm, 141, rfl⟩
abbrev main_c_14 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_15 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_call2_cst : Ref sig .tc := ⟨.hbm, 162, rfl⟩
abbrev main_call2_v0 : Ref sig .tc := ⟨.hbm, 163, rfl⟩
abbrev main_call2_cst_0 : Ref sig .tc := ⟨.hbm, 164, rfl⟩
abbrev main_call2_v1 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_call2_v5 : Ref sig .tc := ⟨.hbm, 169, rfl⟩
abbrev main_call2_v6 : Ref sig .tc := ⟨.hbm, 170, rfl⟩
abbrev main_call2_cst_1 : Ref sig .tc := ⟨.hbm, 171, rfl⟩
abbrev main_call2_v7 : Ref sig .tc := ⟨.hbm, 172, rfl⟩
abbrev main_call2_v8 : Ref sig .tc := ⟨.hbm, 173, rfl⟩
abbrev main_call2_v9 : Ref sig .tc := ⟨.hbm, 174, rfl⟩
abbrev main_call2_v10 : Ref sig .tc := ⟨.hbm, 175, rfl⟩
abbrev main_v124 : Ref sig .tc := ⟨.hbm, 176, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S100000x128_S100000x64_0_0 : S100000x128.Slices ![0, 0] S100000x64
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x2_S100000x2_1_0_0_1_n_n_wf : DotDims.WF S100000x64 S64x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

class Facts : Prop extends Facts₀ where

variable [Facts]
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibProdRows.lean ====
/-
  Two facts about products of rank-2 arrays of extended reals, over generic extents, beside `MatProd.entry` / `mm`.

  First, a dimension-numbers record that contracts the columns of its left operand against the rows of its right
  one (`MatProd.Plain`: one contracted axis of the inner extent, the left operand read at (result row, contracted
  coordinate), the right operand at (contracted coordinate, result column)) makes both spellings of a product the
  array `mm`: the matrix unit's product onto the zero accumulator (`matmul_zero_mm`) and the host's
  dot_general (`dotGeneral_mm`).

  Second, the band law `entry_mm_rows`: if row `p` of a short array `a` is row `r` of a tall array `A`, then
  entry (p, q) of (a * W1) * W2 is entry (r, q) of (A * W1) * W2.  Each entry of a two-fold product depends on one
  row of the leftmost factor only, so a band of rows of the product is the product of the band.  No finiteness is
  used: the two sides are the same sums of the same products.
-/
import proofs.«120428_j80255758893109_1_alg».proof.Proof.LibMatProd

noncomputable section

open scoped BigOperators

namespace MatProd

open Idealize.ShloMosaic Idealize.ShloMosaic.ValueIdx

/-- The record contracts the left operand's columns against the right operand's rows, and nothing else. -/
structure Plain {n k m : ℕ} (d : DotDims (⟨2, ![n, k]⟩ : Shape) (⟨2, ![k, m]⟩ : Shape) (⟨2, ![n, m]⟩ : Shape)) : Prop where
  hr : d.contr.rank = 1
  hs : d.contr.size ⟨0, by omega⟩ = k
  hl0 : ∀ (j : (⟨2, ![n, m]⟩ : Shape).Idx) (c : d.contr.Idx), (d.lhsIdx j c 0).val = (j 0).val
  hl1 : ∀ (j : (⟨2, ![n, m]⟩ : Shape).Idx) (c : d.contr.Idx), (d.lhsIdx j c 1).val = (c ⟨0, by omega⟩).val
  hr0 : ∀ (j : (⟨2, ![n, m]⟩ : Shape).Idx) (c : d.contr.Idx), (d.rhsIdx j c 0).val = (c ⟨0, by omega⟩).val
  hr1 : ∀ (j : (⟨2, ![n, m]⟩ : Shape).Idx) (c : d.contr.Idx), (d.rhsIdx j c 1).val = (j 1).val

/-- The matrix unit's product onto the zero accumulator is the product array. -/
theorem matmul_zero_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (lhs : FVec Ideal (⟨2, ![n, k]⟩ : Shape) φ₁) (rhs : FVec Ideal (⟨2, ![k, m]⟩ : Shape) φ₂) :
    FloatOps.matmul d prec lhs rhs (constant (F := Ideal) (⟨2, ![n, m]⟩ : Shape) .f32 0x00000000#32) = mm lhs rhs := by
  funext i
  obtain ⟨p, q, rfl⟩ : ∃ (p : Fin n) (q : Fin m), i = ix2 p q := ⟨i 0, i 1, eq_ix2 i⟩
  rw [matmul_zero_entry d prec h.hr h.hs h.hl0 h.hl1 h.hr0 h.hr1 lhs rhs p q, mm_ix2]

/-- The host's dot_general at one pair of coordinates is the product's entry. -/
theorem dotGeneral_entry {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) (p : Fin n) (q : Fin m) :
    FloatOps.dotGeneral d prec sched lhs rhs (ix2 p q) = entry lhs rhs p q := by
  rw [Ideal.dotGeneral_apply, ← Equiv.sum_comp (contrEquiv1 d k h.hr h.hs).symm]
  unfold entry
  refine Finset.sum_congr rfl fun l _ => ?_
  have hk := contrEquiv1_symm_val d k h.hr h.hs l
  have el : d.lhsIdx (ix2 p q) ((contrEquiv1 d k h.hr h.hs).symm l) = ix2 p l := funext fun a => Fin.ext (by
    match a with
    | ⟨0, _⟩ => exact h.hl0 _ _
    | ⟨1, _⟩ => exact (h.hl1 _ _).trans hk)
  have er : d.rhsIdx (ix2 p q) ((contrEquiv1 d k h.hr h.hs).symm l) = ix2 l q := funext fun a => Fin.ext (by
    match a with
    | ⟨0, _⟩ => exact (h.hr0 _ _).trans hk
    | ⟨1, _⟩ => exact h.hr1 _ _)
  rw [el, er]

/-- The host's dot_general is the product array. -/
theorem dotGeneral_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) :
    FloatOps.dotGeneral d prec sched lhs rhs = mm lhs rhs := by
  funext i
  obtain ⟨p, q, rfl⟩ : ∃ (p : Fin n) (q : Fin m), i = ix2 p q := ⟨i 0, i 1, eq_ix2 i⟩
  rw [dotGeneral_entry h, mm_ix2]

/-- THE BAND LAW.  If row `p` of `a` is row `r` of `A`, entry (p, q) of (a * W1) * W2 is entry (r, q) of (A * W1) * W2. -/
theorem entry_mm_rows {N n k h m : ℕ} (A : (⟨2, ![N, k]⟩ : Shape).Idx → EReal) (a : (⟨2, ![n, k]⟩ : Shape).Idx → EReal)
    (W1 : (⟨2, ![k, h]⟩ : Shape).Idx → EReal) (W2 : (⟨2, ![h, m]⟩ : Shape).Idx → EReal) (p : Fin n) (r : Fin N)
    (hrow : ∀ l, a (ix2 p l) = A (ix2 r l)) (q : Fin m) :
    entry (mm a W1) W2 p q = entry (mm A W1) W2 r q := by
  unfold entry
  refine Finset.sum_congr rfl fun x _ => ?_
  rw [mm_ix2, mm_ix2]
  unfold entry
  rw [Finset.sum_congr rfl fun l _ => by rw [hrow l]]

end MatProd

end
-- ==== Proof.LibBand.lean ====
/-
  A band of rows of a matrix product is the product of the band.

  Entry (p, q) of a product is the sum over l of A (p, l) * W (l, q): it reads one row of the left factor.  So if the
  short array "a" holds rows o, o + 1, … of the tall array "A", then the product "a * W" at (p, q) is the product
  "A * W" at (o + p, q).  Both sides are the same sum of the same products: nothing about finiteness is used.
-/
import proofs.«120428_j80255758893109_1_alg».proof.Proof.LibMatProd

noncomputable section

open scoped BigOperators

namespace MatProd

open Idealize.ShloMosaic Idealize.ShloMosaic.ValueIdx

/-- The band of the product is the product of the band. "ha": row p of "a" is row r of "A" whenever r = o + p. -/
theorem mm_band {N n k m : ℕ} (A : (⟨2, ![N, k]⟩ : Shape).Idx → EReal) (a : (⟨2, ![n, k]⟩ : Shape).Idx → EReal)
    (W : (⟨2, ![k, m]⟩ : Shape).Idx → EReal) (o : ℕ)
    (ha : ∀ (p : Fin n) (r : Fin N), r.val = o + p.val → ∀ l : Fin k, a (ix2 p l) = A (ix2 r l))
    (j : (⟨2, ![n, m]⟩ : Shape).Idx) (i : (⟨2, ![N, m]⟩ : Shape).Idx)
    (h0 : (i 0).val = o + (j 0).val) (h1 : (i 1).val = (j 1).val) :
    mm a W j = mm A W i := by
  unfold mm entry
  have hq : (⟨(i 1).val, idx2_lt1 i⟩ : Fin m) = ⟨(j 1).val, idx2_lt1 j⟩ := Fin.ext h1
  rw [hq]
  refine Finset.sum_congr rfl fun l _ => ?_
  rw [ha ⟨(j 0).val, idx2_lt0 j⟩ ⟨(i 0).val, idx2_lt0 i⟩ h0 l]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.K0.lean ====
/-
  Region 0: a matrix product, tiled by rows.

  Each of the fifty grid points multiplies a band of 2000 rows of the left array by the whole right array and writes
  the band of the result back.  Since entry (p, q) of a product reads only row p of the left factor, the band of the
  product is the product of the band, and the fifty bands tile the result: the output array ends at the product of the
  two arrays as the region finds them.  (The body rounds its operands to a narrower format first; on extended reals a
  change of format is the identity.)
-/
import proofs.«120428_j80255758893109_1_alg».proof.Proof.Gen.KernelIdeal.Frame
import proofs.«120428_j80255758893109_1_alg».proof.Proof.LibProdRows
import proofs.«120428_j80255758893109_1_alg».proof.Proof.LibBand
import proofs.«120428_j80255758893109_1_alg».proof.Proof.LibDot2
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left array and the result move one band per point, the right array stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product contracts the left operand's columns against the right operand's rows. -/
theorem plain : MatProd.Plain dot_S2000x512_S512x128_S2000x128_1_0_0_1_n_n :=
  ⟨Dot2.rank_contr _ rfl, Dot2.size_contr _ rfl _, Dot2.lhs0 _ rfl rfl, Dot2.lhs1 _ rfl _, Dot2.rhs0 _ rfl _,
    Dot2.rhs1 _ rfl rfl rfl rfl⟩

/-- The body's payload is the product of its two blocks. -/
theorem pay (x0 : Vec Ideal S2000x512 .f32) (x1 : Vec Ideal S512x128 .f32) : k0_pay1 x0 x1 = MatProd.mm x0 x1 := by
  unfold k0_pay1
  exact MatProd.matmul_zero_mm plain none _ _

/-- The left window's block at point t is rows 2000 t … 2000 t + 1999 of the left array. -/
theorem blk0 (c : Dev nD) (t : Fin cfg0.N) (p : Fin 2000) (r : Fin 100000) (hr : r.val = 2000 * t.val + p.val) (l : Fin 512) :
    (iblk0 V c 0 t : S2000x512.Idx → EReal) (ix2 p l) = (V c main_arg0 : S100000x512.Idx → EReal) (ix2 r l) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; have h := e0; omega
  | ⟨1, _⟩ => show win0_0.index t (1 : Fin 2) * 512 + 1 * l.val = l.val; have h := e1; omega

/-- The right window's block at every point is the whole right array. -/
theorem blk1 (c : Dev nD) (t : Fin cfg0.N) : (iblk0 V c 1 t : S512x128.Idx → EReal) = V c main_arg2 := by
  obtain ⟨-, -, e2, e3, -⟩ := idx_facts t
  funext y
  unfold iblk0
  rw [View.read_apply]
  show V c main_arg2 _ = V c main_arg2 y
  congr 1
  funext a
  apply Fin.ext
  match a with
  | ⟨0, _⟩ => show win0_1.index t (0 : Fin 2) * 512 + 1 * (y 0).val = (y 0).val; have h := e2; omega
  | ⟨1, _⟩ => show win0_1.index t (1 : Fin 2) * 128 + 1 * (y 1).val = (y 1).val; have h := e3; omega

/-- What point t writes back is block t of the product of the two arrays. -/
theorem flushed_eq (c : Dev nD) (t : Fin cfg0.N) :
    (dat0 V c).flushed 2 t
      = ((cfg0.win 2).blk t).view.read (Elt Ideal) (MatProd.mm (V c main_arg0 : S100000x512.Idx → EReal) (V c main_arg2 : S512x128.Idx → EReal)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  rw [pay]
  obtain ⟨-, -, -, -, e4, e5⟩ := idx_facts t
  funext j
  show MatProd.mm (iblk0 V c 0 t : S2000x512.Idx → EReal) (iblk0 V c 1 t : S512x128.Idx → EReal) j
    = MatProd.mm (V c main_arg0 : S100000x512.Idx → EReal) (V c main_arg2 : S512x128.Idx → EReal) (((cfg0.win 2).blk t).view.emb j)
  rw [blk1 V c t]
  refine MatProd.mm_band (N := 100000) (n := 2000) (k := 512) (m := 128) (V c main_arg0) (iblk0 V c 0 t) (V c main_arg2) (2000 * t.val)
    (fun p r hr l => blk0 V c t p r hr l) j _ ?_ ?_
  · show win0_2.index t (0 : Fin 2) * 2000 + 1 * (j 0).val = 2000 * t.val + (j 0).val; have h := e4; omega
  · show win0_2.index t (1 : Fin 2) * 128 + 1 * (j 1).val = (j 1).val; have h := e5; omega

/-- An index of the result array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- The fifty bands tile the result array: row r is in the block of point r / 2000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    have h : win0_2.index ⟨(i 0).val / 2000, ht⟩ (0 : Fin 2) = (i 0).val / 2000 := e4; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    have h := e5; omega

/-- The result array after the region: the product of the two arrays as the region finds them. -/
theorem final (c : Dev nD) :
    (dat0 V c).arrAt 2 cfg0.N = MatProd.mm (V c main_arg0 : S100000x512.Idx → EReal) (V c main_arg2 : S512x128.Idx → EReal) :=
  (dat0 V c).arrAt_eq_of_cover 2 _ (fun t _ => flushed_eq V c t) cover

end Cert.KernelIdeal.K0

end
-- ==== Proof.LibGcnEntry.lean ====
/-
  The entry-wise layers of the graph network, on extended reals.

  After the neighbours' rows have been added up, every layer works row by row, and inside a row entry by entry
  except for the final normalisation:
    comb : the aggregate plus the node's own projected row scaled by its self-loop weight, plus the bias;
    bn   : comb, centred by the running mean, scaled by the reciprocal square root of (running variance + eps) and
           by the gain, shifted, and clamped at zero from below;
    lsm  : a row minus its maximum, minus the logarithm of the sum of the exponentials of that difference
           (the logarithm of the softmax).
  "bnArr" and "finArr" apply these to whole arrays: the self-loop weights come as a one-column array, the per-channel
  parameters as one-row arrays.  The float literals (eps, zero, minus infinity) are kept as the words the programs
  spell them with: both programs carry the same words, so they are never evaluated.
-/
import Idealize.ShloMosaic.Lib.ValueIdx
import Idealize.ShloMosaic.PureOps.Ideal.Laws

noncomputable section

open scoped BigOperators

namespace GcnEntry

open Idealize.ShloMosaic Idealize.ShloMosaic.ValueIdx

/-- An n × k array of extended reals. -/
abbrev Arr (n k : ℕ) : Type := (⟨2, ![n, k]⟩ : Shape).Idx → EReal

def epsF : EReal := Ideal.ofBits .f32 0x3727C5AC#32
def zeroF : EReal := Ideal.ofBits .f32 0x00000000#32
def negInfF : EReal := Ideal.ofBits .f32 0xFF800000#32

/-- Aggregate, self loop, bias. -/
def comb (agg h sn b : EReal) : EReal := (agg + h * sn) + b

/-- Aggregate, self loop, bias, batch normalisation with running statistics, clamp at zero. -/
def bn (agg h sn b mu var g be : EReal) : EReal :=
  max ((((agg + h * sn) + b) - mu) * Ideal.rsqrt (var + epsF) * g + be) zeroF

/-- The maximum of a row: the fold of "max" from minus infinity. -/
def rowMax {k : ℕ} (y : Fin k → EReal) : EReal := (Finset.univ : Finset (Fin k)).fold max negInfF y

/-- The logarithm of the softmax of a row, at column q. -/
def lsm {k : ℕ} (y : Fin k → EReal) (q : Fin k) : EReal :=
  (y q - rowMax y) - Ideal.log (∑ l : Fin k, Ideal.exp (y l - rowMax y))

/-- "bn" on whole arrays. -/
def bnArr {n k : ℕ} (agg h : Arr n k) (sn : Arr n 1) (b mu var g be : Arr 1 k) : Arr n k :=
  fun i => bn (agg i) (h i) (sn (ix2 ⟨(i 0).val, idx2_lt0 i⟩ (0 : Fin 1)))
    (b (ix2 (0 : Fin 1) ⟨(i 1).val, idx2_lt1 i⟩)) (mu (ix2 (0 : Fin 1) ⟨(i 1).val, idx2_lt1 i⟩))
    (var (ix2 (0 : Fin 1) ⟨(i 1).val, idx2_lt1 i⟩)) (g (ix2 (0 : Fin 1) ⟨(i 1).val, idx2_lt1 i⟩))
    (be (ix2 (0 : Fin 1) ⟨(i 1).val, idx2_lt1 i⟩))

theorem bnArr_ix2 {n k : ℕ} (agg h : Arr n k) (sn : Arr n 1) (b mu var g be : Arr 1 k) (r : Fin n) (q : Fin k) :
    bnArr agg h sn b mu var g be (ix2 r q)
      = bn (agg (ix2 r q)) (h (ix2 r q)) (sn (ix2 r (0 : Fin 1))) (b (ix2 (0 : Fin 1) q)) (mu (ix2 (0 : Fin 1) q))
          (var (ix2 (0 : Fin 1) q)) (g (ix2 (0 : Fin 1) q)) (be (ix2 (0 : Fin 1) q)) := rfl

/-- Row r of "comb" on whole arrays. -/
def combRow {n k : ℕ} (agg h : Arr n k) (sn : Arr n 1) (b : Arr 1 k) (r : Fin n) : Fin k → EReal :=
  fun l => comb (agg (ix2 r l)) (h (ix2 r l)) (sn (ix2 r (0 : Fin 1))) (b (ix2 (0 : Fin 1) l))

/-- "comb" then "lsm" on whole arrays. -/
def finArr {n k : ℕ} (agg h : Arr n k) (sn : Arr n 1) (b : Arr 1 k) : Arr n k :=
  fun i => lsm (combRow agg h sn b ⟨(i 0).val, idx2_lt0 i⟩) ⟨(i 1).val, idx2_lt1 i⟩

theorem finArr_ix2 {n k : ℕ} (agg h : Arr n k) (sn : Arr n 1) (b : Arr 1 k) (r : Fin n) (q : Fin k) :
    finArr agg h sn b (ix2 r q) = lsm (combRow agg h sn b r) q := rfl

/-- Minus infinity is the unit of "max". -/
theorem max_negInfF (y : EReal) : max negInfF y = y := by
  unfold negInfF; simp [Ideal.ofBits, Ideal.ieee]

end GcnEntry

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.K1.lean ====
/-
  Region 1: self loop, bias, batch normalisation and clamp at zero, tiled by rows.

  Each of the fifty grid points takes a band of 2000 rows of the aggregate and of the projected features, the same
  band of the one-column array of self-loop weights, and the five one-row parameter arrays whole, and writes back
  the band of the result.  Every entry of the result depends on the entries at the same place of the two tall arrays,
  on its row's self-loop weight and on its column's five parameters; so the band of the whole-array layer is the
  layer of the band, and the fifty bands tile the result: the output array ends at "bnArr" of the arrays as the
  region finds them.
-/
import proofs.«120428_j80255758893109_1_alg».proof.Proof.Gen.KernelIdeal.Frame
import proofs.«120428_j80255758893109_1_alg».proof.Proof.LibGcnEntry
import proofs.«120428_j80255758893109_1_alg».proof.Proof.LibRowCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the tall windows (0, 1, 2 and the output 8) move one band per point, the
    one-row parameter windows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The body's payload at an entry: "bn" of the entries it depends on. -/
theorem pay_apply (x0 x1 : Vec Ideal S2000x128 .f32) (x2 : Vec Ideal S2000x1 .f32) (x3 x4 x5 x6 x7 : Vec Ideal S1x128 .f32)
    (p : Fin 2000) (q : Fin 128) :
    k1_pay1 x0 x1 x2 x3 x4 x5 x6 x7 (ix2 p q)
      = GcnEntry.bn (x0 (ix2 p q)) (x1 (ix2 p q)) (x2 (ix2 p (0 : Fin 1))) (x3 (ix2 (0 : Fin 1) q)) (x4 (ix2 (0 : Fin 1) q))
          (x5 (ix2 (0 : Fin 1) q)) (x6 (ix2 (0 : Fin 1) q)) (x7 (ix2 (0 : Fin 1) q)) := by
  have hc : ∀ (v : S2000x1.Idx → EReal) h, broadcastTo S2000x128 v h (ix2 p q) = v (ix2 p (0 : Fin 1)) :=
    fun v h => RowCol.broadcastTo_a1_ab_apply (a := 2000) (b := 128) v h p q
  have hr : ∀ (v : S1x128.Idx → EReal) h, broadcastTo S2000x128 v h (ix2 p q) = v (ix2 (0 : Fin 1) q) :=
    fun v h => broadcastTo_1b_ab_apply (a := 2000) (b := 128) v h p q
  unfold k1_pay1 GcnEntry.bn GcnEntry.epsF GcnEntry.zeroF
  simp only [shapeCast_self]
  simp only [maximumf, addf, mulf, subf, rsqrt, broadcast, hc, hr]
  rfl

/-- Window 0's block at point t is rows 2000 t … 2000 t + 1999 of its array. -/
theorem blk0 (c : Dev nD) (t : Fin cfg1.N) (p : Fin 2000) (r : Fin 100000) (hr : r.val = 2000 * t.val + p.val) (q : Fin 128) :
    (iblk1 V c 0 t : S2000x128.Idx → EReal) (ix2 p q) = (V c main_v40 : S100000x128.Idx → EReal) (ix2 r q) := by
  have e := idx_facts t
  unfold iblk1
  rw [View.read_apply]
  show V c main_v40 _ = V c main_v40 _
  congr 1
  funext a
  apply Fin.ext
  match a with
  | ⟨0, _⟩ => show win1_0.index t (0 : Fin 2) * 2000 + 1 * p.val = r.val; have h := e.1; omega
  | ⟨1, _⟩ => show win1_0.index t (1 : Fin 2) * 128 + 1 * q.val = q.val; have h := e.2.1; omega

/-- Window 1's block at point t is rows 2000 t … 2000 t + 1999 of its array. -/
theorem blk1 (c : Dev nD) (t : Fin cfg1.N) (p : Fin 2000) (r : Fin 100000) (hr : r.val = 2000 * t.val + p.val) (q : Fin 128) :
    (iblk1 V c 1 t : S2000x128.Idx → EReal) (ix2 p q) = (V c main_v27 : S100000x128.Idx → EReal) (ix2 r q) := by
  have e := idx_facts t
  unfold iblk1
  rw [View.read_apply]
  show V c main_v27 _ = V c main_v27 _
  congr 1
  funext a
  apply Fin.ext
  match a with
  | ⟨0, _⟩ => show win1_1.index t (0 : Fin 2) * 2000 + 1 * p.val = r.val; have h := e.2.2.1; omega
  | ⟨1, _⟩ => show win1_1.index t (1 : Fin 2) * 128 + 1 * q.val = q.val; have h := e.2.2.2.1; omega

/-- The self-loop window's block at point t is rows 2000 t … 2000 t + 1999 of the one-column array. -/
theorem blk2 (c : Dev nD) (t : Fin cfg1.N) (p : Fin 2000) (r : Fin 100000) (hr : r.val = 2000 * t.val + p.val) :
    (iblk1 V c 2 t : S2000x1.Idx → EReal) (ix2 p (0 : Fin 1)) = (V c main_v41 : S100000x1.Idx → EReal) (ix2 r (0 : Fin 1)) := by
  have e := idx_facts t
  unfold iblk1
  rw [View.read_apply]
  show V c main_v41 _ = V c main_v41 _
  congr 1
  funext a
  apply Fin.ext
  match a with
  | ⟨0, _⟩ => show win1_2.index t (0 : Fin 2) * 2000 + 1 * p.val = r.val; have h := e.2.2.2.2.1; omega
  | ⟨1, _⟩ => show win1_2.index t (1 : Fin 2) * 1 + 1 * 0 = 0; have h := e.2.2.2.2.2.1; omega

/-- Window 3's block at every point is its whole one-row array. -/
theorem blk3 (c : Dev nD) (t : Fin cfg1.N) : (iblk1 V c 3 t : S1x128.Idx → EReal) = V c main_v42 := by
  have e := idx_facts t
  funext y
  unfold iblk1
  rw [View.read_apply]
  show V c main_v42 _ = V c main_v42 y
  congr 1
  funext a
  apply Fin.ext
  have hy0 : (y 0).val < 1 := (y 0).isLt
  match a with
  | ⟨0, _⟩ => show win1_3.index t (0 : Fin 2) * 1 + 1 * (y 0).val = (y 0).val; have h := e.2.2.2.2.2.2.1; omega
  | ⟨1, _⟩ => show win1_3.index t (1 : Fin 2) * 128 + 1 * (y 1).val = (y 1).val; have h := e.2.2.2.2.2.2.2.1; omega

/-- Window 4's block at every point is its whole one-row array. -/
theorem blk4 (c : Dev nD) (t : Fin cfg1.N) : (iblk1 V c 4 t : S1x128.Idx → EReal) = V c main_v43 := by
  have e := idx_facts t
  funext y
  unfold iblk1
  rw [View.read_apply]
  show V c main_v43 _ = V c main_v43 y
  congr 1
  funext a
  apply Fin.ext
  have hy0 : (y 0).val < 1 := (y 0).isLt
  match a with
  | ⟨0, _⟩ => show win1_4.index t (0 : Fin 2) * 1 + 1 * (y 0).val = (y 0).val; have h := e.2.2.2.2.2.2.2.2.1; omega
  | ⟨1, _⟩ => show win1_4.index t (1 : Fin 2) * 128 + 1 * (y 1).val = (y 1).val; have h := e.2.2.2.2.2.2.2.2.2.1; omega

/-- Window 5's block at every point is its whole one-row array. -/
theorem blk5 (c : Dev nD) (t : Fin cfg1.N) : (iblk1 V c 5 t : S1x128.Idx → EReal) = V c main_v44 := by
  have e := idx_facts t
  funext y
  unfold iblk1
  rw [View.read_apply]
  show V c main_v44 _ = V c main_v44 y
  congr 1
  funext a
  apply Fin.ext
  have hy0 : (y 0).val < 1 := (y 0).isLt
  match a with
  | ⟨0, _⟩ => show win1_5.index t (0 : Fin 2) * 1 + 1 * (y 0).val = (y 0).val; have h := e.2.2.2.2.2.2.2.2.2.2.1; omega
  | ⟨1, _⟩ => show win1_5.index t (1 : Fin 2) * 128 + 1 * (y 1).val = (y 1).val; have h := e.2.2.2.2.2.2.2.2.2.2.2.1; omega

/-- Window 6's block at every point is its whole one-row array. -/
theorem blk6 (c : Dev nD) (t : Fin cfg1.N) : (iblk1 V c 6 t : S1x128.Idx → EReal) = V c main_v45 := by
  have e := idx_facts t
  funext y
  unfold iblk1
  rw [View.read_apply]
  show V c main_v45 _ = V c main_v45 y
  congr 1
  funext a
  apply Fin.ext
  have hy0 : (y 0).val < 1 := (y 0).isLt
  match a with
  | ⟨0, _⟩ => show win1_6.index t (0 : Fin 2) * 1 + 1 * (y 0).val = (y 0).val; have h := e.2.2.2.2.2.2.2.2.2.2.2.2.1; omega
  | ⟨1, _⟩ => show win1_6.index t (1 : Fin 2) * 128 + 1 * (y 1).val = (y 1).val; have h := e.2.2.2.2.2.2.2.2.2.2.2.2.2.1; omega

/-- Window 7's block at every point is its whole one-row array. -/
theorem blk7 (c : Dev nD) (t : Fin cfg1.N) : (iblk1 V c 7 t : S1x128.Idx → EReal) = V c main_v46 := by
  have e := idx_facts t
  funext y
  unfold iblk1
  rw [View.read_apply]
  show V c main_v46 _ = V c main_v46 y
  congr 1
  funext a
  apply Fin.ext
  have hy0 : (y 0).val < 1 := (y 0).isLt
  match a with
  | ⟨0, _⟩ => show win1_7.index t (0 : Fin 2) * 1 + 1 * (y 0).val = (y 0).val; have h := e.2.2.2.2.2.2.2.2.2.2.2.2.2.2.1; omega
  | ⟨1, _⟩ => show win1_7.index t (1 : Fin 2) * 128 + 1 * (y 1).val = (y 1).val; have h := e.2.2.2.2.2.2.2.2.2.2.2.2.2.2.2.1; omega

/-- The whole-array layer of the arrays as the region finds them. -/
abbrev G (c : Dev nD) : S100000x128.Idx → EReal :=
  GcnEntry.bnArr (n := 100000) (k := 128) (V c main_v40) (V c main_v27) (V c main_v41) (V c main_v42) (V c main_v45) (V c main_v46) (V c main_v43) (V c main_v44)

/-- At one entry of the band: the body's payload of the blocks is the whole-array layer at the entry's place. -/
theorem point (c : Dev nD) (t : Fin cfg1.N) (j : S2000x128.Idx) :
    k1_pay1 (iblk1 V c 0 t) (iblk1 V c 1 t) (iblk1 V c 2 t) (iblk1 V c 3 t) (iblk1 V c 6 t) (iblk1 V c 7 t) (iblk1 V c 4 t) (iblk1 V c 5 t) j
      = G V c (((cfg1.win 8).blk t).view.emb j) := by
  obtain ⟨p, q, rfl⟩ : ∃ (p : Fin 2000) (q : Fin 128), j = ix2 p q := ⟨j 0, j 1, eq_ix2 j⟩
  have e := idx_facts t
  have hN : cfg1.N = 50 := N_1
  have ht : t.val < 50 := hN ▸ t.isLt
  have hrlt : 2000 * t.val + p.val < 100000 := by have := p.isLt; omega
  have hemb : ((cfg1.win 8).blk t).view.emb (ix2 p q) = (ix2 (⟨2000 * t.val + p.val, hrlt⟩ : Fin 100000) q : S100000x128.Idx) := by
    funext a
    apply Fin.ext
    match a with
    | ⟨0, _⟩ => show win1_8.index t (0 : Fin 2) * 2000 + 1 * p.val = 2000 * t.val + p.val; have h := e.2.2.2.2.2.2.2.2.2.2.2.2.2.2.2.2.1; omega
    | ⟨1, _⟩ => show win1_8.index t (1 : Fin 2) * 128 + 1 * q.val = q.val; have h := e.2.2.2.2.2.2.2.2.2.2.2.2.2.2.2.2.2; omega
  rw [hemb]
  refine (pay_apply _ _ _ _ _ _ _ _ p q).trans ?_
  unfold G
  rw [GcnEntry.bnArr_ix2, blk0 V c t p ⟨2000 * t.val + p.val, hrlt⟩ rfl q, blk1 V c t p ⟨2000 * t.val + p.val, hrlt⟩ rfl q,
    blk2 V c t p ⟨2000 * t.val + p.val, hrlt⟩ rfl, blk3 V c t, blk4 V c t, blk5 V c t, blk6 V c t, blk7 V c t]

/-- What point t writes back is block t of the whole-array layer. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S2000x128) hz, View.ld_unit_zero (S := S2000x1) hz, View.ld_unit_zero (S := S1x128) hz]
  funext j
  exact point V c t j

/-- An index of the result array is in point t's block iff each coordinate is in the block's range on its axis. -/
theorem mem_blk (t : Fin cfg1.N) (i : S100000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v47).slice (win1_8.rect t)).set ↔ _
  rw [View.set_slice_whole, Rect.mem_set_unit]
  exact Iff.rfl

/-- The fifty bands tile the result array: row r is in the block of point r / 2000. -/
theorem cover (i : S100000x128.Idx) : ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 50 := N_1
  have ht : (i 0).val / 2000 < cfg1.N := by rw [hN]; omega
  have e := idx_facts ⟨(i 0).val / 2000, ht⟩
  refine ⟨⟨(i 0).val / 2000, ht⟩, flush1_8 _, ?_⟩
  rw [mem_blk]
  intro a
  match a with
  | ⟨0, _⟩ =>
    show win1_8.index ⟨(i 0).val / 2000, ht⟩ (0 : Fin 2) * 2000 ≤ (i 0).val ∧ (i 0).val < win1_8.index ⟨(i 0).val / 2000, ht⟩ (0 : Fin 2) * 2000 + 2000
    have h : win1_8.index ⟨(i 0).val / 2000, ht⟩ (0 : Fin 2) = (i 0).val / 2000 := e.2.2.2.2.2.2.2.2.2.2.2.2.2.2.2.2.1; omega
  | ⟨1, _⟩ =>
    show win1_8.index ⟨(i 0).val / 2000, ht⟩ (1 : Fin 2) * 128 ≤ (i 1).val ∧ (i 1).val < win1_8.index ⟨(i 0).val / 2000, ht⟩ (1 : Fin 2) * 128 + 128
    have h := e.2.2.2.2.2.2.2.2.2.2.2.2.2.2.2.2.2; omega

/-- The result array after the region: the whole-array layer of the arrays as the region finds them. -/
theorem final (c : Dev nD) : (dat1 V c).arrAt 8 cfg1.N = G V c :=
  (dat1 V c).arrAt_eq_of_cover 8 _ (fun t _ => flushed_eq V c t) cover

end Cert.KernelIdeal.K1

end
-- ==== Proof.K2.lean ====
/-
  Region 2: a matrix product, tiled by rows.

  Each of the fifty grid points multiplies a band of 2000 rows of the left array by the whole right array and writes
  the band of the result back.  Since entry (p, q) of a product reads only row p of the left factor, the band of the
  product is the product of the band, and the fifty bands tile the result: the output array ends at the product of the
  two arrays as the region finds them.  (The body rounds its operands to a narrower format first; on extended reals a
  change of format is the identity.)
-/
import proofs.«120428_j80255758893109_1_alg».proof.Proof.Gen.KernelIdeal.Frame
import proofs.«120428_j80255758893109_1_alg».proof.Proof.LibProdRows
import proofs.«120428_j80255758893109_1_alg».proof.Proof.LibBand
import proofs.«120428_j80255758893109_1_alg».proof.Proof.LibDot2
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left array and the result move one band per point, the right array stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product contracts the left operand's columns against the right operand's rows. -/
theorem plain : MatProd.Plain dot_S2000x128_S128x64_S2000x64_1_0_0_1_n_n :=
  ⟨Dot2.rank_contr _ rfl, Dot2.size_contr _ rfl _, Dot2.lhs0 _ rfl rfl, Dot2.lhs1 _ rfl _, Dot2.rhs0 _ rfl _,
    Dot2.rhs1 _ rfl rfl rfl rfl⟩

/-- The body's payload is the product of its two blocks. -/
theorem pay (x0 : Vec Ideal S2000x128 .f32) (x1 : Vec Ideal S128x64 .f32) : k2_pay1 x0 x1 = MatProd.mm x0 x1 := by
  unfold k2_pay1
  simp only [shapeCast_self]
  exact MatProd.matmul_zero_mm plain none _ _

/-- The left window's block at point t is rows 2000 t … 2000 t + 1999 of the left array. -/
theorem blk0 (c : Dev nD) (t : Fin cfg2.N) (p : Fin 2000) (r : Fin 100000) (hr : r.val = 2000 * t.val + p.val) (l : Fin 128) :
    (iblk2 V c 0 t : S2000x128.Idx → EReal) (ix2 p l) = (V c main_v47 : S100000x128.Idx → EReal) (ix2 r l) := by
  obtain ⟨e0, e1, -⟩ := idx_facts t
  unfold iblk2
  rw [View.read_apply]
  show V c main_v47 _ = V c main_v47 _
  congr 1
  funext a
  apply Fin.ext
  match a with
  | ⟨0, _⟩ => show win2_0.index t (0 : Fin 2) * 2000 + 1 * p.val = r.val; have h := e0; omega
  | ⟨1, _⟩ => show win2_0.index t (1 : Fin 2) * 128 + 1 * l.val = l.val; have h := e1; omega

/-- The right window's block at every point is the whole right array. -/
theorem blk1 (c : Dev nD) (t : Fin cfg2.N) : (iblk2 V c 1 t : S128x64.Idx → EReal) = V c main_arg8 := by
  obtain ⟨-, -, e2, e3, -⟩ := idx_facts t
  funext y
  unfold iblk2
  rw [View.read_apply]
  show V c main_arg8 _ = V c main_arg8 y
  congr 1
  funext a
  apply Fin.ext
  match a with
  | ⟨0, _⟩ => show win2_1.index t (0 : Fin 2) * 128 + 1 * (y 0).val = (y 0).val; have h := e2; omega
  | ⟨1, _⟩ => show win2_1.index t (1 : Fin 2) * 64 + 1 * (y 1).val = (y 1).val; have h := e3; omega

/-- What point t writes back is block t of the product of the two arrays. -/
theorem flushed_eq (c : Dev nD) (t : Fin cfg2.N) :
    (dat2 V c).flushed 2 t
      = ((cfg2.win 2).blk t).view.read (Elt Ideal) (MatProd.mm (V c main_v47 : S100000x128.Idx → EReal) (V c main_arg8 : S128x64.Idx → EReal)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  rw [pay]
  obtain ⟨-, -, -, -, e4, e5⟩ := idx_facts t
  funext j
  show MatProd.mm (iblk2 V c 0 t : S2000x128.Idx → EReal) (iblk2 V c 1 t : S128x64.Idx → EReal) j
    = MatProd.mm (V c main_v47 : S100000x128.Idx → EReal) (V c main_arg8 : S128x64.Idx → EReal) (((cfg2.win 2).blk t).view.emb j)
  rw [blk1 V c t]
  refine MatProd.mm_band (N := 100000) (n := 2000) (k := 128) (m := 64) (V c main_v47) (iblk2 V c 0 t) (V c main_arg8) (2000 * t.val)
    (fun p r hr l => blk0 V c t p r hr l) j _ ?_ ?_
  · show win2_2.index t (0 : Fin 2) * 2000 + 1 * (j 0).val = 2000 * t.val + (j 0).val; have h := e4; omega
  · show win2_2.index t (1 : Fin 2) * 64 + 1 * (j 1).val = (j 1).val; have h := e5; omega

/-- An index of the result array is in point t's block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v48).slice (win2_2.rect t)).set ↔ _
  rw [View.set_slice_whole, Rect.mem_set_unit]
  exact Iff.rfl

/-- The fifty bands tile the result array: row r is in the block of point r / 2000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  have ht : (i 0).val / 2000 < cfg2.N := by rw [hN]; omega
  obtain ⟨-, -, -, -, e4, e5⟩ := idx_facts ⟨(i 0).val / 2000, ht⟩
  refine ⟨⟨(i 0).val / 2000, ht⟩, flush2_2 _, ?_⟩
  rw [mem_blk]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    have h : win2_2.index ⟨(i 0).val / 2000, ht⟩ (0 : Fin 2) = (i 0).val / 2000 := e4; omega
  | ⟨1, _⟩ =>
    show win2_2.index ⟨(i 0).val / 2000, ht⟩ (1 : Fin 2) * 64 ≤ (i 1).val ∧ (i 1).val < win2_2.index ⟨(i 0).val / 2000, ht⟩ (1 : Fin 2) * 64 + 64
    have h := e5; omega

/-- The result array after the region: the product of the two arrays as the region finds them. -/
theorem final (c : Dev nD) :
    (dat2 V c).arrAt 2 cfg2.N = MatProd.mm (V c main_v47 : S100000x128.Idx → EReal) (V c main_arg8 : S128x64.Idx → EReal) :=
  (dat2 V c).arrAt_eq_of_cover 2 _ (fun t _ => flushed_eq V c t) cover

end Cert.KernelIdeal.K2

end
-- ==== Proof.K3.lean ====
/-
  Region 3: self loop, bias, batch normalisation and clamp at zero, tiled by rows.

  Each of the fifty grid points takes a band of 2000 rows of the aggregate and of the projected features, the same
  band of the one-column array of self-loop weights, and the five one-row parameter arrays whole, and writes back
  the band of the result.  Every entry of the result depends on the entries at the same place of the two tall arrays,
  on its row's self-loop weight and on its column's five parameters; so the band of the whole-array layer is the
  layer of the band, and the fifty bands tile the result: the output array ends at "bnArr" of the arrays as the
  region finds them.
-/
import proofs.«120428_j80255758893109_1_alg».proof.Proof.Gen.KernelIdeal.Frame
import proofs.«120428_j80255758893109_1_alg».proof.Proof.LibGcnEntry
import proofs.«120428_j80255758893109_1_alg».proof.Proof.LibRowCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the tall windows (0, 1, 2 and the output 8) move one band per point, the
    one-row parameter windows stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- The body's payload at an entry: "bn" of the entries it depends on. -/
theorem pay_apply (x0 x1 : Vec Ideal S2000x64 .f32) (x2 : Vec Ideal S2000x1 .f32) (x3 x4 x5 x6 x7 : Vec Ideal S1x64 .f32)
    (p : Fin 2000) (q : Fin 64) :
    k3_pay1 x0 x1 x2 x3 x4 x5 x6 x7 (ix2 p q)
      = GcnEntry.bn (x0 (ix2 p q)) (x1 (ix2 p q)) (x2 (ix2 p (0 : Fin 1))) (x3 (ix2 (0 : Fin 1) q)) (x4 (ix2 (0 : Fin 1) q))
          (x5 (ix2 (0 : Fin 1) q)) (x6 (ix2 (0 : Fin 1) q)) (x7 (ix2 (0 : Fin 1) q)) := by
  have hc : ∀ (v : S2000x1.Idx → EReal) h, broadcastTo S2000x64 v h (ix2 p q) = v (ix2 p (0 : Fin 1)) :=
    fun v h => RowCol.broadcastTo_a1_ab_apply (a := 2000) (b := 64) v h p q
  have hr : ∀ (v : S1x64.Idx → EReal) h, broadcastTo S2000x64 v h (ix2 p q) = v (ix2 (0 : Fin 1) q) :=
    fun v h => broadcastTo_1b_ab_apply (a := 2000) (b := 64) v h p q
  unfold k3_pay1 GcnEntry.bn GcnEntry.epsF GcnEntry.zeroF
  simp only [shapeCast_self]
  simp only [maximumf, addf, mulf, subf, rsqrt, broadcast, hc, hr]
  rfl

/-- Window 0's block at point t is rows 2000 t … 2000 t + 1999 of its array. -/
theorem blk0 (c : Dev nD) (t : Fin cfg3.N) (p : Fin 2000) (r : Fin 100000) (hr : r.val = 2000 * t.val + p.val) (q : Fin 64) :
    (iblk3 V c 0 t : S2000x64.Idx → EReal) (ix2 p q) = (V c main_v61 : S100000x64.Idx → EReal) (ix2 r q) := by
  have e := idx_facts t
  unfold iblk3
  rw [View.read_apply]
  show V c main_v61 _ = V c main_v61 _
  congr 1
  funext a
  apply Fin.ext
  match a with
  | ⟨0, _⟩ => show win3_0.index t (0 : Fin 2) * 2000 + 1 * p.val = r.val; have h := e.1; omega
  | ⟨1, _⟩ => show win3_0.index t (1 : Fin 2) * 64 + 1 * q.val = q.val; have h := e.2.1; omega

/-- Window 1's block at point t is rows 2000 t … 2000 t + 1999 of its array. -/
theorem blk1 (c : Dev nD) (t : Fin cfg3.N) (p : Fin 2000) (r : Fin 100000) (hr : r.val = 2000 * t.val + p.val) (q : Fin 64) :
    (iblk3 V c 1 t : S2000x64.Idx → EReal) (ix2 p q) = (V c main_v48 : S100000x64.Idx → EReal) (ix2 r q) := by
  have e := idx_facts t
  unfold iblk3
  rw [View.read_apply]
  show V c main_v48 _ = V c main_v48 _
  congr 1
  funext a
  apply Fin.ext
  match a with
  | ⟨0, _⟩ => show win3_1.index t (0 : Fin 2) * 2000 + 1 * p.val = r.val; have h := e.2.2.1; omega
  | ⟨1, _⟩ => show win3_1.index t (1 : Fin 2) * 64 + 1 * q.val = q.val; have h := e.2.2.2.1; omega

/-- The self-loop window's block at point t is rows 2000 t … 2000 t + 1999 of the one-column array. -/
theorem blk2 (c : Dev nD) (t : Fin cfg3.N) (p : Fin 2000) (r : Fin 100000) (hr : r.val = 2000 * t.val + p.val) :
    (iblk3 V c 2 t : S2000x1.Idx → EReal) (ix2 p (0 : Fin 1)) = (V c main_v62 : S100000x1.Idx → EReal) (ix2 r (0 : Fin 1)) := by
  have e := idx_facts t
  unfold iblk3
  rw [View.read_apply]
  show V c main_v62 _ = V c main_v62 _
  congr 1
  funext a
  apply Fin.ext
  match a with
  | ⟨0, _⟩ => show win3_2.index t (0 : Fin 2) * 2000 + 1 * p.val = r.val; have h := e.2.2.2.2.1; omega
  | ⟨1, _⟩ => show win3_2.index t (1 : Fin 2) * 1 + 1 * 0 = 0; have h := e.2.2.2.2.2.1; omega

/-- Window 3's block at every point is its whole one-row array. -/
theorem blk3 (c : Dev nD) (t : Fin cfg3.N) : (iblk3 V c 3 t : S1x64.Idx → EReal) = V c main_v63 := by
  have e := idx_facts t
  funext y
  unfold iblk3
  rw [View.read_apply]
  show V c main_v63 _ = V c main_v63 y
  congr 1
  funext a
  apply Fin.ext
  have hy0 : (y 0).val < 1 := (y 0).isLt
  match a with
  | ⟨0, _⟩ => show win3_3.index t (0 : Fin 2) * 1 + 1 * (y 0).val = (y 0).val; have h := e.2.2.2.2.2.2.1; omega
  | ⟨1, _⟩ => show win3_3.index t (1 : Fin 2) * 64 + 1 * (y 1).val = (y 1).val; have h := e.2.2.2.2.2.2.2.1; omega

/-- Window 4's block at every point is its whole one-row array. -/
theorem blk4 (c : Dev nD) (t : Fin cfg3.N) : (iblk3 V c 4 t : S1x64.Idx → EReal) = V c main_v64 := by
  have e := idx_facts t
  funext y
  unfold iblk3
  rw [View.read_apply]
  show V c main_v64 _ = V c main_v64 y
  congr 1
  funext a
  apply Fin.ext
  have hy0 : (y 0).val < 1 := (y 0).isLt
  match a with
  | ⟨0, _⟩ => show win3_4.index t (0 : Fin 2) * 1 + 1 * (y 0).val = (y 0).val; have h := e.2.2.2.2.2.2.2.2.1; omega
  | ⟨1, _⟩ => show win3_4.index t (1 : Fin 2) * 64 + 1 * (y 1).val = (y 1).val; have h := e.2.2.2.2.2.2.2.2.2.1; omega

/-- Window 5's block at every point is its whole one-row array. -/
theorem blk5 (c : Dev nD) (t : Fin cfg3.N) : (iblk3 V c 5 t : S1x64.Idx → EReal) = V c main_v65 := by
  have e := idx_facts t
  funext y
  unfold iblk3
  rw [View.read_apply]
  show V c main_v65 _ = V c main_v65 y
  congr 1
  funext a
  apply Fin.ext
  have hy0 : (y 0).val < 1 := (y 0).isLt
  match a with
  | ⟨0, _⟩ => show win3_5.index t (0 : Fin 2) * 1 + 1 * (y 0).val = (y 0).val; have h := e.2.2.2.2.2.2.2.2.2.2.1; omega
  | ⟨1, _⟩ => show win3_5.index t (1 : Fin 2) * 64 + 1 * (y 1).val = (y 1).val; have h := e.2.2.2.2.2.2.2.2.2.2.2.1; omega

/-- Window 6's block at every point is its whole one-row array. -/
theorem blk6 (c : Dev nD) (t : Fin cfg3.N) : (iblk3 V c 6 t : S1x64.Idx → EReal) = V c main_v66 := by
  have e := idx_facts t
  funext y
  unfold iblk3
  rw [View.read_apply]
  show V c main_v66 _ = V c main_v66 y
  congr 1
  funext a
  apply Fin.ext
  have hy0 : (y 0).val < 1 := (y 0).isLt
  match a with
  | ⟨0, _⟩ => show win3_6.index t (0 : Fin 2) * 1 + 1 * (y 0).val = (y 0).val; have h := e.2.2.2.2.2.2.2.2.2.2.2.2.1; omega
  | ⟨1, _⟩ => show win3_6.index t (1 : Fin 2) * 64 + 1 * (y 1).val = (y 1).val; have h := e.2.2.2.2.2.2.2.2.2.2.2.2.2.1; omega

/-- Window 7's block at every point is its whole one-row array. -/
theorem blk7 (c : Dev nD) (t : Fin cfg3.N) : (iblk3 V c 7 t : S1x64.Idx → EReal) = V c main_v67 := by
  have e := idx_facts t
  funext y
  unfold iblk3
  rw [View.read_apply]
  show V c main_v67 _ = V c main_v67 y
  congr 1
  funext a
  apply Fin.ext
  have hy0 : (y 0).val < 1 := (y 0).isLt
  match a with
  | ⟨0, _⟩ => show win3_7.index t (0 : Fin 2) * 1 + 1 * (y 0).val = (y 0).val; have h := e.2.2.2.2.2.2.2.2.2.2.2.2.2.2.1; omega
  | ⟨1, _⟩ => show win3_7.index t (1 : Fin 2) * 64 + 1 * (y 1).val = (y 1).val; have h := e.2.2.2.2.2.2.2.2.2.2.2.2.2.2.2.1; omega

/-- The whole-array layer of the arrays as the region finds them. -/
abbrev G (c : Dev nD) : S100000x64.Idx → EReal :=
  GcnEntry.bnArr (n := 100000) (k := 64) (V c main_v61) (V c main_v48) (V c main_v62) (V c main_v63) (V c main_v66) (V c main_v67) (V c main_v64) (V c main_v65)

/-- At one entry of the band: the body's payload of the blocks is the whole-array layer at the entry's place. -/
theorem point (c : Dev nD) (t : Fin cfg3.N) (j : S2000x64.Idx) :
    k3_pay1 (iblk3 V c 0 t) (iblk3 V c 1 t) (iblk3 V c 2 t) (iblk3 V c 3 t) (iblk3 V c 6 t) (iblk3 V c 7 t) (iblk3 V c 4 t) (iblk3 V c 5 t) j
      = G V c (((cfg3.win 8).blk t).view.emb j) := by
  obtain ⟨p, q, rfl⟩ : ∃ (p : Fin 2000) (q : Fin 64), j = ix2 p q := ⟨j 0, j 1, eq_ix2 j⟩
  have e := idx_facts t
  have hN : cfg3.N = 50 := N_3
  have ht : t.val < 50 := hN ▸ t.isLt
  have hrlt : 2000 * t.val + p.val < 100000 := by have := p.isLt; omega
  have hemb : ((cfg3.win 8).blk t).view.emb (ix2 p q) = (ix2 (⟨2000 * t.val + p.val, hrlt⟩ : Fin 100000) q : S100000x64.Idx) := by
    funext a
    apply Fin.ext
    match a with
    | ⟨0, _⟩ => show win3_8.index t (0 : Fin 2) * 2000 + 1 * p.val = 2000 * t.val + p.val; have h := e.2.2.2.2.2.2.2.2.2.2.2.2.2.2.2.2.1; omega
    | ⟨1, _⟩ => show win3_8.index t (1 : Fin 2) * 64 + 1 * q.val = q.val; have h := e.2.2.2.2.2.2.2.2.2.2.2.2.2.2.2.2.2; omega
  rw [hemb]
  refine (pay_apply _ _ _ _ _ _ _ _ p q).trans ?_
  unfold G
  rw [GcnEntry.bnArr_ix2, blk0 V c t p ⟨2000 * t.val + p.val, hrlt⟩ rfl q, blk1 V c t p ⟨2000 * t.val + p.val, hrlt⟩ rfl q,
    blk2 V c t p ⟨2000 * t.val + p.val, hrlt⟩ rfl, blk3 V c t, blk4 V c t, blk5 V c t, blk6 V c t, blk7 V c t]

/-- What point t writes back is block t of the whole-array layer. -/
theorem flushed_eq (c : Dev nD) (t : Fin cfg3.N) :
    (dat3 V c).flushed 8 t = ((cfg3.win 8).blk t).view.read (Elt Ideal) (G V c) := by
  show (cfg3.win 8).cut (grid3.coords t) ((dat3 V c).after 8 t) = _
  rw [after3_8]
  unfold out3_8
  rw [View.canon_unit_zero hz]
  simp only [View.ld_unit_zero (S := S2000x64) hz, View.ld_unit_zero (S := S2000x1) hz, View.ld_unit_zero (S := S1x64) hz]
  funext j
  exact point V c t j

/-- An index of the result array is in point t's block iff each coordinate is in the block's range on its axis. -/
theorem mem_blk (t : Fin cfg3.N) (i : S100000x64.Idx) :
    i ∈ ((cfg3.win 8).blk t).view.set ↔ ∀ a : Fin 2, win3_8.index t a * S2000x64.size a ≤ (i a).val ∧ (i a).val < win3_8.index t a * S2000x64.size a + S2000x64.size a := by
  show i ∈ ((View.whole main_v68).slice (win3_8.rect t)).set ↔ _
  rw [View.set_slice_whole, Rect.mem_set_unit]
  exact Iff.rfl

/-- The fifty bands tile the result array: row r is in the block of point r / 2000. -/
theorem cover (i : S100000x64.Idx) : ∃ t : Fin cfg3.N, (cfg3.win 8).flush t = true ∧ i ∈ ((cfg3.win 8).blk t).view.set := by
  have hi0 : (i 0).val < 100000 := (i 0).isLt
  have hi1 : (i 1).val < 64 := (i 1).isLt
  have hN : cfg3.N = 50 := N_3
  have ht : (i 0).val / 2000 < cfg3.N := by rw [hN]; omega
  have e := idx_facts ⟨(i 0).val / 2000, ht⟩
  refine ⟨⟨(i 0).val / 2000, ht⟩, flush3_8 _, ?_⟩
  rw [mem_blk]
  intro a
  match a with
  | ⟨0, _⟩ =>
    show win3_8.index ⟨(i 0).val / 2000, ht⟩ (0 : Fin 2) * 2000 ≤ (i 0).val ∧ (i 0).val < win3_8.index ⟨(i 0).val / 2000, ht⟩ (0 : Fin 2) * 2000 + 2000
    have h : win3_8.index ⟨(i 0).val / 2000, ht⟩ (0 : Fin 2) = (i 0).val / 2000 := e.2.2.2.2.2.2.2.2.2.2.2.2.2.2.2.2.1; omega
  | ⟨1, _⟩ =>
    show win3_8.index ⟨(i 0).val / 2000, ht⟩ (1 : Fin 2) * 64 ≤ (i 1).val ∧ (i 1).val < win3_8.index ⟨(i 0).val / 2000, ht⟩ (1 : Fin 2) * 64 + 64
    have h := e.2.2.2.2.2.2.2.2.2.2.2.2.2.2.2.2.2; omega

/-- The result array after the region: the whole-array layer of the arrays as the region finds them. -/
theorem final (c : Dev nD) : (dat3 V c).arrAt 8 cfg3.N = G V c :=
  (dat3 V c).arrAt_eq_of_cover 8 _ (fun t _ => flushed_eq V c t) cover

end Cert.KernelIdeal.K3

end
-- ==== Proof.K4.lean ====
/-
  Region 4: a matrix product, tiled by rows.

  Each of the fifty grid points multiplies a band of 2000 rows of the left array by the whole right array and writes
  the band of the result back.  Since entry (p, q) of a product reads only row p of the left factor, the band of the
  product is the product of the band, and the fifty bands tile the result: the output array ends at the product of the
  two arrays as the region finds them.  (The body rounds its operands to a narrower format first; on extended reals a
  change of format is the identity.)
-/
import proofs.«120428_j80255758893109_1_alg».proof.Proof.Gen.KernelIdeal.Frame
import proofs.«120428_j80255758893109_1_alg».proof.Proof.LibProdRows
import proofs.«120428_j80255758893109_1_alg».proof.Proof.LibBand
import proofs.«120428_j80255758893109_1_alg».proof.Proof.LibDot2
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left array and the result move one band per point, the right array stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's product contracts the left operand's columns against the right operand's rows. -/
theorem plain : MatProd.Plain dot_S2000x64_S64x2_S2000x2_1_0_0_1_n_n :=
  ⟨Dot2.rank_contr _ rfl, Dot2.size_contr _ rfl _, Dot2.lhs0 _ rfl rfl, Dot2.lhs1 _ rfl _, Dot2.rhs0 _ rfl _,
    Dot2.rhs1 _ rfl rfl rfl rfl⟩

/-- The body's payload is the product of its two blocks. -/
theorem pay (x0 : Vec Ideal S2000x64 .f32) (x1 : Vec Ideal S64x2 .f32) : k4_pay1 x0 x1 = MatProd.mm x0 x1 := by
  unfold k4_pay1
  simp only [shapeCast_self]
  exact MatProd.matmul_zero_mm plain none _ _

/-- The left window's block at point t is rows 2000 t … 2000 t + 1999 of the left array. -/
theorem blk0 (c : Dev nD) (t : Fin cfg4.N) (p : Fin 2000) (r : Fin 100000) (hr : r.val = 2000 * t.val + p.val) (l : Fin 64) :
    (iblk4 V c 0 t : S2000x64.Idx → EReal) (ix2 p l) = (V c main_v70 : S100000x64.Idx → EReal) (ix2 r l) := by
  obtain ⟨e0, e1, -⟩ := idx_facts t
  unfold iblk4
  rw [View.read_apply]
  show V c main_v70 _ = V c main_v70 _
  congr 1
  funext a
  apply Fin.ext
  match a with
  | ⟨0, _⟩ => show win4_0.index t (0 : Fin 2) * 2000 + 1 * p.val = r.val; have h := e0; omega
  | ⟨1, _⟩ => show win4_0.index t (1 : Fin 2) * 64 + 1 * l.val = l.val; have h := e1; omega

/-- The right window's block at every point is the whole right array. -/
theorem blk1 (c : Dev nD) (t : Fin cfg4.N) : (iblk4 V c 1 t : S64x2.Idx → EReal) = V c main_arg14 := by
  obtain ⟨-, -, e2, e3, -⟩ := idx_facts t
  funext y
  unfold iblk4
  rw [View.read_apply]
  show V c main_arg14 _ = V c main_arg14 y
  congr 1
  funext a
  apply Fin.ext
  match a with
  | ⟨0, _⟩ => show win4_1.index t (0 : Fin 2) * 64 + 1 * (y 0).val = (y 0).val; have h := e2; omega
  | ⟨1, _⟩ => show win4_1.index t (1 : Fin 2) * 2 + 1 * (y 1).val = (y 1).val; have h := e3; omega

/-- What point t writes back is block t of the product of the two arrays. -/
theorem flushed_eq (c : Dev nD) (t : Fin cfg4.N) :
    (dat4 V c).flushed 2 t
      = ((cfg4.win 2).blk t).view.read (Elt Ideal) (MatProd.mm (V c main_v70 : S100000x64.Idx → EReal) (V c main_arg14 : S64x2.Idx → EReal)) := by
  show (cfg4.win 2).cut (grid4.coords t) ((dat4 V c).after 2 t) = _
  rw [after4_2]
  unfold out4_2
  rw [View.canon_unit_zero hz]
  simp only [View.ld_unit_zero (S := S2000x64) hz, View.ld_unit_zero (S := S64x2) hz]
  rw [pay]
  obtain ⟨-, -, -, -, e4, e5⟩ := idx_facts t
  funext j
  show MatProd.mm (iblk4 V c 0 t : S2000x64.Idx → EReal) (iblk4 V c 1 t : S64x2.Idx → EReal) j
    = MatProd.mm (V c main_v70 : S100000x64.Idx → EReal) (V c main_arg14 : S64x2.Idx → EReal) (((cfg4.win 2).blk t).view.emb j)
  rw [blk1 V c t]
  refine MatProd.mm_band (N := 100000) (n := 2000) (k := 64) (m := 2) (V c main_v70) (iblk4 V c 0 t) (V c main_arg14) (2000 * t.val)
    (fun p r hr l => blk0 V c t p r hr l) j _ ?_ ?_
  · show win4_2.index t (0 : Fin 2) * 2000 + 1 * (j 0).val = 2000 * t.val + (j 0).val; have h := e4; omega
  · show win4_2.index t (1 : Fin 2) * 2 + 1 * (j 1).val = (j 1).val; have h := e5; omega

/-- An index of the result array is in point t's block iff each coordinate is in the block's range on its axis. -/
theorem mem_blk (t : Fin cfg4.N) (i : S100000x2.Idx) :
    i ∈ ((cfg4.win 2).blk t).view.set ↔ ∀ a : Fin 2, win4_2.index t a * S2000x2.size a ≤ (i a).val ∧ (i a).val < win4_2.index t a * S2000x2.size a + S2000x2.size a := by
  show i ∈ ((View.whole main_v71).slice (win4_2.rect t)).set ↔ _
  rw [View.set_slice_whole, Rect.mem_set_unit]
  exact Iff.rfl

/-- The fifty bands tile the result array: row r is in the block of point r / 2000. -/
theorem cover (i : S100000x2.Idx) : ∃ t : Fin cfg4.N, (cfg4.win 2).flush t = true ∧ i ∈ ((cfg4.win 2).blk t).view.set := by
  have hi0 : (i 0).val < 100000 := (i 0).isLt
  have hi1 : (i 1).val < 2 := (i 1).isLt
  have hN : cfg4.N = 50 := N_4
  have ht : (i 0).val / 2000 < cfg4.N := by rw [hN]; omega
  obtain ⟨-, -, -, -, e4, e5⟩ := idx_facts ⟨(i 0).val / 2000, ht⟩
  refine ⟨⟨(i 0).val / 2000, ht⟩, flush4_2 _, ?_⟩
  rw [mem_blk]
  intro a
  match a with
  | ⟨0, _⟩ =>
    show win4_2.index ⟨(i 0).val / 2000, ht⟩ (0 : Fin 2) * 2000 ≤ (i 0).val ∧ (i 0).val < win4_2.index ⟨(i 0).val / 2000, ht⟩ (0 : Fin 2) * 2000 + 2000
    have h : win4_2.index ⟨(i 0).val / 2000, ht⟩ (0 : Fin 2) = (i 0).val / 2000 := e4; omega
  | ⟨1, _⟩ =>
    show win4_2.index ⟨(i 0).val / 2000, ht⟩ (1 : Fin 2) * 2 ≤ (i 1).val ∧ (i 1).val < win4_2.index ⟨(i 0).val / 2000, ht⟩ (1 : Fin 2) * 2 + 2
    have h := e5; omega

/-- The result array after the region: the product of the two arrays as the region finds them. -/
theorem final (c : Dev nD) :
    (dat4 V c).arrAt 2 cfg4.N = MatProd.mm (V c main_v70 : S100000x64.Idx → EReal) (V c main_arg14 : S64x2.Idx → EReal) :=
  (dat4 V c).arrAt_eq_of_cover 2 _ (fun t _ => flushed_eq V c t) cover

end Cert.KernelIdeal.K4

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibMatProdT.lean ====
/-
  A matrix unit's product whose right operand is stored with the contracted axis LAST: for an `n × k` array `A` and an
  `m × k` array `B`, contracting the second axis of both onto the zero accumulator gives, at `(p, q)`, the sum over `l` of
  `A (p, l) * B (q, l)` — the entries of `A · Bᵀ` without the transpose ever being formed.  Also a row maximum: a
  `maximumf` reduction of a rank-2 array along its last axis reads, at row `p`, the fold of `max` from the accumulator's
  value over that row.  Generic extents; indices are built from coordinates.
-/
import Idealize.ShloMosaic.Lib.ValueIdx
import Idealize.ShloMosaic.PureOps.Ideal.Laws

noncomputable section

open scoped BigOperators

namespace MatProdT

open Idealize.ShloMosaic Idealize.ShloMosaic.ValueIdx

/-- The product onto the zero accumulator with both operands contracted along their second axis. -/
theorem matmul_zero_entry_T {n k m : ℕ} {φ₁ φ₂ : FTy}
    (d : DotDims (⟨2, ![n, k]⟩ : Shape) (⟨2, ![m, k]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (j 1).val)
    (hr1 : ∀ (j : (⟨2, ![n, m]⟩ : Shape).Idx) (c : d.contr.Idx), (d.rhsIdx j c 1).val = (c ⟨0, by omega⟩).val)
    (lhs : FVec Ideal (⟨2, ![n, k]⟩ : Shape) φ₁) (rhs : FVec Ideal (⟨2, ![m, k]⟩ : Shape) φ₂) (p : Fin n) (q : Fin m) :
    FloatOps.matmul d prec lhs rhs (constant (F := Ideal) (⟨2, ![n, m]⟩ : Shape) .f32 0x00000000#32) (ix2 p q)
      = ∑ l : Fin k, lhs (ix2 p l) * rhs (ix2 q l) := by
  rw [Ideal.matmul_constant_zero_apply, ← Equiv.sum_comp (contrEquiv1 d k hr hs).symm]
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 q l := funext fun a => Fin.ext (by
    match a with
    | ⟨0, _⟩ => exact hr0 _ _
    | ⟨1, _⟩ => exact (hr1 _ _).trans hk)
  rw [el, er]

/-- A row maximum: the fold of `max` from the accumulator's value over the row's entries. -/
theorem max_ab_1 {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i)) = fun k : Fin b => src (ix2 i k) := funext fun k => congrArg src (funext fun ax => Fin.ext (by
    match ax with | ⟨0, _⟩ => rfl | ⟨1, _⟩ => rfl))
  exact congrArg (fun f => Finset.fold max (Ideal.ofBits φ acc) f (Finset.univ : Finset (Fin b))) e

end MatProdT

end
-- ==== Proof.LibRowStat.lean ====
/-
  A row statistic of a rank-2 array kept as a column and stretched back over the row: the `keepdims` maximum and the
  `keepdims` sum along the last axis, each reshaped `[a] → [a, 1]` and broadcast `[a, 1] → [a, b]`, read at `(p, r)`:
  the fold of `max` from −∞, or the sum, over row `p` — the same at every `r`.  Also the column `[a, 1]` itself read at
  `(p, 0)`.  The arrays are single-precision; the reductions start from the words a program prints for them, the zero
  word for a sum and the word of −∞ for a maximum, and the side conditions are typed as a printed program proves them.
  The exponential and the reciprocal square root of an array of extended reals are taken entry by entry.  Generic
  extents; indices are built from coordinates.
-/
import Idealize.ShloMosaic.Lib.Pipeline.Value
import Idealize.ShloMosaic.Lib.ValueIdx
import Idealize.ShloMosaic.PureOps.Ideal.Laws
import proofs.«120428_j80255758893109_1_alg».proof.Proof.LibLayout
import proofs.«120428_j80255758893109_1_alg».proof.Proof.LibRowCol
import proofs.«120428_j80255758893109_1_alg».proof.Proof.LibMatProdT

noncomputable section

open scoped BigOperators

namespace RowStat

open Idealize.ShloMosaic Idealize.ShloMosaic.ValueIdx

theorem exp_apply {s : Shape} {φ : FTy} (x : FVec Ideal s φ) (i : s.Idx) : exp x i = Ideal.exp (x i) := rfl
theorem rsqrt_apply {s : Shape} {φ : FTy} (x : FVec Ideal s φ) (i : s.Idx) : rsqrt x i = Ideal.rsqrt (x i) := rfl

/-- The row maximum as a column, at `(p, u)`. -/
theorem max_col {a b : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (p : Fin a) (u : Fin 1) :
    shapeCast ⟨2, ![a, 1]⟩ (multiReduction .maximumf [1] ⟨1, ![a]⟩ z 0xFF800000#32 hred hφ hacc) hc (ix2 p u)
      = (Finset.univ : Finset (Fin b)).fold max (Ideal.ofBits .f32 0xFF800000#32) (fun k => z (ix2 p k)) :=
  (PushPull.Layout.cast_a_a1 _ hc p u).trans (MatProdT.max_ab_1 z 0xFF800000#32 hred hφ hacc p)

/-- The row sum as a column, at `(p, u)`. -/
theorem sum_col {a b : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ z 0x00000000#32 hred hφ hacc) hc (ix2 p u)
      = ∑ k : Fin b, z (ix2 p k) :=
  (PushPull.Layout.cast_a_a1 _ hc p u).trans (PushPull.Layout.sum_ab_1 z 0x00000000#32 hred hφ hacc p)

/-- The row maximum stretched back over the row, at `(p, r)`. -/
theorem max_back {a b c : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .maximumf [1] ⟨1, ![a]⟩ z 0xFF800000#32 hred hφ hacc) hc) hb (ix2 p r)
      = (Finset.univ : Finset (Fin b)).fold max (Ideal.ofBits .f32 0xFF800000#32) (fun k => z (ix2 p k)) :=
  (RowCol.broadcastTo_a1_ab_apply _ hb p r).trans (max_col z hred hφ hacc hc p 0)

/-- The row sum stretched back over the row, at `(p, r)`. -/
theorem sum_back {a b c : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .add [1] ⟨1, ![a]⟩ z 0x00000000#32 hred hφ hacc) hc) hb (ix2 p r)
      = ∑ k : Fin b, z (ix2 p k) :=
  (RowCol.broadcastTo_a1_ab_apply _ hb p r).trans (sum_col z hred hφ hacc hc p 0)

end RowStat

end
-- ==== Proof.K5.lean ====
/-
  Region 5: self loop, bias and the logarithm of the softmax along each row, tiled by rows.

  Each of the fifty grid points takes a band of 2000 rows of the aggregate and of the projected features, the same
  band of the one-column array of self-loop weights and the one-row bias whole; it forms the combined rows, subtracts
  each row's maximum, and subtracts the logarithm of the sum of the exponentials.  Every row of the result depends
  on the same row of the inputs only, so the band of the whole-array layer is the layer of the band, and the fifty
  bands tile the result: the output array ends at "finArr" of the arrays as the region finds them.
-/
import proofs.«120428_j80255758893109_1_alg».proof.Proof.Gen.KernelIdeal.Frame
import proofs.«120428_j80255758893109_1_alg».proof.Proof.LibGcnEntry
import proofs.«120428_j80255758893109_1_alg».proof.Proof.LibRowCol
import proofs.«120428_j80255758893109_1_alg».proof.Proof.LibRowStat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.K5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the tall windows (0, 1, 2 and the output 4) move one band per point, the
    one-row bias window stays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The row maximum stretched back over the row. -/
abbrev rowMaxBack (z : FVec Ideal S2000x2 .f32) : FVec Ideal S2000x2 .f32 :=
  broadcastTo S2000x2 (shapeCast S2000x1 (multiReduction .maximumf [1] S2000 z 0xFF800000#32 reduces_S2000x2_S2000 (.inl rfl) rfl) shapeCasts_S2000_S2000x1) broadcasts_S2000x1_S2000x2

/-- The body's last operations on the combined rows z: subtract the row maximum, then the logarithm of the row sum of
    the exponentials.  At an entry this is the logarithm of the softmax of the entry's row. -/
theorem lsm_tail (z : FVec Ideal S2000x2 .f32) (p : Fin 2000) (q : Fin 2) :
    subf (subf z (rowMaxBack z))
        (broadcastTo S2000x2 (log (shapeCast S2000x1 (multiReduction .add [1] S2000 (exp (subf z (rowMaxBack z))) 0x00000000#32 reduces_S2000x2_S2000 (.inl rfl) rfl) shapeCasts_S2000_S2000x1)) broadcasts_S2000x1_S2000x2)
        (ix2 p q)
      = GcnEntry.lsm (fun l => z (ix2 p l)) q := by
  have hmax : ∀ r : Fin 2, rowMaxBack z (ix2 p r) = GcnEntry.rowMax (fun l => z (ix2 p l)) := fun r =>
    RowStat.max_back (a := 2000) (b := 2) (c := 2) z reduces_S2000x2_S2000 (.inl rfl) rfl shapeCasts_S2000_S2000x1 broadcasts_S2000x1_S2000x2 p r
  have hsh : ∀ r : Fin 2, subf z (rowMaxBack z) (ix2 p r) = z (ix2 p r) - GcnEntry.rowMax (fun l => z (ix2 p l)) := fun r => by
    show z (ix2 p r) - rowMaxBack z (ix2 p r) = _
    rw [hmax r]
  have hsum : broadcastTo S2000x2 (log (shapeCast S2000x1 (multiReduction .add [1] S2000 (exp (subf z (rowMaxBack z))) 0x00000000#32 reduces_S2000x2_S2000 (.inl rfl) rfl) shapeCasts_S2000_S2000x1)) broadcasts_S2000x1_S2000x2 (ix2 p q)
      = Ideal.log (∑ l : Fin 2, Ideal.exp (z (ix2 p l) - GcnEntry.rowMax (fun l => z (ix2 p l)))) := by
    refine (RowCol.broadcastTo_a1_ab_apply (a := 2000) (b := 2) _ broadcasts_S2000x1_S2000x2 p q).trans ?_
    show Ideal.log (shapeCast S2000x1 (multiReduction .add [1] S2000 (exp (subf z (rowMaxBack z))) 0x00000000#32 reduces_S2000x2_S2000 (.inl rfl) rfl) shapeCasts_S2000_S2000x1 (ix2 p (0 : Fin 1))) = _
    refine congrArg Ideal.log ?_
    refine (RowStat.sum_col (a := 2000) (b := 2) (exp (subf z (rowMaxBack z))) reduces_S2000x2_S2000 (.inl rfl) rfl shapeCasts_S2000_S2000x1 p 0).trans ?_
    refine Finset.sum_congr rfl fun l _ => ?_
    show Ideal.exp (subf z (rowMaxBack z) (ix2 p l)) = _
    rw [hsh l]
  show subf z (rowMaxBack z) (ix2 p q) - _ = _
  rw [hsh q, hsum]
  rfl

/-- The body's payload at an entry: the logarithm of the softmax of the entry's combined row. -/
theorem pay_apply (x0 x1 : Vec Ideal S2000x2 .f32) (x2 : Vec Ideal S2000x1 .f32) (x3 : Vec Ideal S1x2 .f32) (p : Fin 2000) (q : Fin 2) :
    k5_pay1 x0 x1 x2 x3 (ix2 p q)
      = GcnEntry.lsm (fun l => GcnEntry.comb (x0 (ix2 p l)) (x1 (ix2 p l)) (x2 (ix2 p (0 : Fin 1))) (x3 (ix2 (0 : Fin 1) l))) q := by
  unfold k5_pay1
  simp only [shapeCast_self]
  refine (lsm_tail (addf (addf x0 (mulf x1 (broadcastTo S2000x2 x2 broadcasts_S2000x1_S2000x2))) (broadcastTo S2000x2 x3 broadcasts_S1x2_S2000x2)) p q).trans ?_
  refine congrArg (fun y => GcnEntry.lsm y q) (funext fun l => ?_)
  show (x0 (ix2 p l) + x1 (ix2 p l) * broadcastTo S2000x2 x2 broadcasts_S2000x1_S2000x2 (ix2 p l)) + broadcastTo S2000x2 x3 broadcasts_S1x2_S2000x2 (ix2 p l) = _
  rw [RowCol.broadcastTo_a1_ab_apply (a := 2000) (b := 2) x2 broadcasts_S2000x1_S2000x2 p l,
    broadcastTo_1b_ab_apply (a := 2000) (b := 2) x3 broadcasts_S1x2_S2000x2 p l]
  rfl

/-- Window 0's block at point t is rows 2000 t … 2000 t + 1999 of its array. -/
theorem blk0 (c : Dev nD) (t : Fin cfg5.N) (p : Fin 2000) (r : Fin 100000) (hr : r.val = 2000 * t.val + p.val) (q : Fin 2) :
    (iblk5 V c 0 t : S2000x2.Idx → EReal) (ix2 p q) = (V c main_v84 : S100000x2.Idx → EReal) (ix2 r q) := by
  have e := idx_facts t
  unfold iblk5
  rw [View.read_apply]
  show V c main_v84 _ = V c main_v84 _
  congr 1
  funext a
  apply Fin.ext
  match a with
  | ⟨0, _⟩ => show win5_0.index t (0 : Fin 2) * 2000 + 1 * p.val = r.val; have h := e.1; omega
  | ⟨1, _⟩ => show win5_0.index t (1 : Fin 2) * 2 + 1 * q.val = q.val; have h := e.2.1; omega

/-- Window 1's block at point t is rows 2000 t … 2000 t + 1999 of its array. -/
theorem blk1 (c : Dev nD) (t : Fin cfg5.N) (p : Fin 2000) (r : Fin 100000) (hr : r.val = 2000 * t.val + p.val) (q : Fin 2) :
    (iblk5 V c 1 t : S2000x2.Idx → EReal) (ix2 p q) = (V c main_v71 : S100000x2.Idx → EReal) (ix2 r q) := by
  have e := idx_facts t
  unfold iblk5
  rw [View.read_apply]
  show V c main_v71 _ = V c main_v71 _
  congr 1
  funext a
  apply Fin.ext
  match a with
  | ⟨0, _⟩ => show win5_1.index t (0 : Fin 2) * 2000 + 1 * p.val = r.val; have h := e.2.2.1; omega
  | ⟨1, _⟩ => show win5_1.index t (1 : Fin 2) * 2 + 1 * q.val = q.val; have h := e.2.2.2.1; omega

/-- The self-loop window's block at point t is rows 2000 t … 2000 t + 1999 of the one-column array. -/
theorem blk2 (c : Dev nD) (t : Fin cfg5.N) (p : Fin 2000) (r : Fin 100000) (hr : r.val = 2000 * t.val + p.val) :
    (iblk5 V c 2 t : S2000x1.Idx → EReal) (ix2 p (0 : Fin 1)) = (V c main_v85 : S100000x1.Idx → EReal) (ix2 r (0 : Fin 1)) := by
  have e := idx_facts t
  unfold iblk5
  rw [View.read_apply]
  show V c main_v85 _ = V c main_v85 _
  congr 1
  funext a
  apply Fin.ext
  match a with
  | ⟨0, _⟩ => show win5_2.index t (0 : Fin 2) * 2000 + 1 * p.val = r.val; have h := e.2.2.2.2.1; omega
  | ⟨1, _⟩ => show win5_2.index t (1 : Fin 2) * 1 + 1 * 0 = 0; have h := e.2.2.2.2.2.1; omega

/-- The bias window's block at every point is the whole one-row array. -/
theorem blk3 (c : Dev nD) (t : Fin cfg5.N) : (iblk5 V c 3 t : S1x2.Idx → EReal) = V c main_v86 := by
  have e := idx_facts t
  funext y
  unfold iblk5
  rw [View.read_apply]
  show V c main_v86 _ = V c main_v86 y
  congr 1
  funext a
  apply Fin.ext
  have hy0 : (y 0).val < 1 := (y 0).isLt
  match a with
  | ⟨0, _⟩ => show win5_3.index t (0 : Fin 2) * 1 + 1 * (y 0).val = (y 0).val; have h := e.2.2.2.2.2.2.1; omega
  | ⟨1, _⟩ => show win5_3.index t (1 : Fin 2) * 2 + 1 * (y 1).val = (y 1).val; have h := e.2.2.2.2.2.2.2.1; omega

/-- The whole-array layer of the arrays as the region finds them. -/
abbrev G (c : Dev nD) : S100000x2.Idx → EReal :=
  GcnEntry.finArr (n := 100000) (k := 2) (V c main_v84) (V c main_v71) (V c main_v85) (V c main_v86)

/-- At one entry of the band: the body's payload of the blocks is the whole-array layer at the entry's place. -/
theorem point (c : Dev nD) (t : Fin cfg5.N) (j : S2000x2.Idx) :
    k5_pay1 (iblk5 V c 0 t) (iblk5 V c 1 t) (iblk5 V c 2 t) (iblk5 V c 3 t) j = G V c (((cfg5.win 4).blk t).view.emb j) := by
  obtain ⟨p, q, rfl⟩ : ∃ (p : Fin 2000) (q : Fin 2), j = ix2 p q := ⟨j 0, j 1, eq_ix2 j⟩
  have e := idx_facts t
  have hN : cfg5.N = 50 := N_5
  have ht : t.val < 50 := hN ▸ t.isLt
  have hrlt : 2000 * t.val + p.val < 100000 := by have := p.isLt; omega
  have hemb : ((cfg5.win 4).blk t).view.emb (ix2 p q) = (ix2 (⟨2000 * t.val + p.val, hrlt⟩ : Fin 100000) q : S100000x2.Idx) := by
    funext a
    apply Fin.ext
    match a with
    | ⟨0, _⟩ => show win5_4.index t (0 : Fin 2) * 2000 + 1 * p.val = 2000 * t.val + p.val; have h := e.2.2.2.2.2.2.2.2.1; omega
    | ⟨1, _⟩ => show win5_4.index t (1 : Fin 2) * 2 + 1 * q.val = q.val; have h := e.2.2.2.2.2.2.2.2.2; omega
  rw [hemb]
  refine (pay_apply _ _ _ _ p q).trans ?_
  unfold G
  rw [GcnEntry.finArr_ix2]
  refine congrArg (fun y => GcnEntry.lsm y q) (funext fun l => ?_)
  unfold GcnEntry.combRow
  rw [blk0 V c t p ⟨2000 * t.val + p.val, hrlt⟩ rfl l, blk1 V c t p ⟨2000 * t.val + p.val, hrlt⟩ rfl l,
    blk2 V c t p ⟨2000 * t.val + p.val, hrlt⟩ rfl, blk3 V c t]

/-- What point t writes back is block t of the whole-array layer. -/
theorem flushed_eq (c : Dev nD) (t : Fin cfg5.N) :
    (dat5 V c).flushed 4 t = ((cfg5.win 4).blk t).view.read (Elt Ideal) (G V c) := by
  show (cfg5.win 4).cut (grid5.coords t) ((dat5 V c).after 4 t) = _
  rw [after5_4]
  unfold out5_4
  rw [View.canon_unit_zero hz]
  simp only [View.ld_unit_zero (S := S2000x2) hz, View.ld_unit_zero (S := S2000x1) hz, View.ld_unit_zero (S := S1x2) hz]
  funext j
  exact point V c t j

/-- An index of the result array is in point t's block iff each coordinate is in the block's range on its axis. -/
theorem mem_blk (t : Fin cfg5.N) (i : S100000x2.Idx) :
    i ∈ ((cfg5.win 4).blk t).view.set ↔ ∀ a : Fin 2, win5_4.index t a * S2000x2.size a ≤ (i a).val ∧ (i a).val < win5_4.index t a * S2000x2.size a + S2000x2.size a := by
  show i ∈ ((View.whole main_v87).slice (win5_4.rect t)).set ↔ _
  rw [View.set_slice_whole, Rect.mem_set_unit]
  exact Iff.rfl

/-- The fifty bands tile the result array: row r is in the block of point r / 2000. -/
theorem cover (i : S100000x2.Idx) : ∃ t : Fin cfg5.N, (cfg5.win 4).flush t = true ∧ i ∈ ((cfg5.win 4).blk t).view.set := by
  have hi0 : (i 0).val < 100000 := (i 0).isLt
  have hi1 : (i 1).val < 2 := (i 1).isLt
  have hN : cfg5.N = 50 := N_5
  have ht : (i 0).val / 2000 < cfg5.N := by rw [hN]; omega
  have e := idx_facts ⟨(i 0).val / 2000, ht⟩
  refine ⟨⟨(i 0).val / 2000, ht⟩, flush5_4 _, ?_⟩
  rw [mem_blk]
  intro a
  match a with
  | ⟨0, _⟩ =>
    show win5_4.index ⟨(i 0).val / 2000, ht⟩ (0 : Fin 2) * 2000 ≤ (i 0).val ∧ (i 0).val < win5_4.index ⟨(i 0).val / 2000, ht⟩ (0 : Fin 2) * 2000 + 2000
    have h : win5_4.index ⟨(i 0).val / 2000, ht⟩ (0 : Fin 2) = (i 0).val / 2000 := e.2.2.2.2.2.2.2.2.1; omega
  | ⟨1, _⟩ =>
    show win5_4.index ⟨(i 0).val / 2000, ht⟩ (1 : Fin 2) * 2 ≤ (i 1).val ∧ (i 1).val < win5_4.index ⟨(i 0).val / 2000, ht⟩ (1 : Fin 2) * 2 + 2
    have h := e.2.2.2.2.2.2.2.2.2; omega

/-- The result array after the region: the whole-array layer of the arrays as the region finds them. -/
theorem final (c : Dev nD) : (dat5 V c).arrAt 4 cfg5.N = G V c :=
  (dat5 V c).arrAt_eq_of_cover 4 _ (fun t _ => flushed_eq V c t) cover

end Cert.KernelIdeal.K5

end
-- ==== Proof.RefLayers.lean ====
/-
  The reference program's layers, read entry by entry.

  The reference computes the same three-layer network with whole-array host operations.  Read at an entry (r, q):
    * each dense projection is the matrix product of its two operands;
    * the first two layers' post-aggregation chains (self loop, bias, batch normalisation, clamp at zero) are "bn"
      of the aggregate's and the projection's entries at (r, q), the self-loop weight of row r and the five
      parameters of column q: every broadcast only repeats a row's or a column's value;
    * the last layer's chain is the logarithm of the softmax of row r of the combined array: the host's row maximum
      is the fold of "max" from minus infinity (taking the maximum with minus infinity once more changes nothing),
      the host's row sum starts from zero.
-/
import proofs.«120428_j80255758893109_1_alg».proof.Proof.RefRead
import proofs.«120428_j80255758893109_1_alg».proof.Proof.LibGcnEntry
import proofs.«120428_j80255758893109_1_alg».proof.Proof.LibProdRows
import proofs.«120428_j80255758893109_1_alg».proof.Proof.LibDot2
import Idealize.ShloMosaic.Lib.ValueIdx
import Idealize.ShloMosaic.PureOps.Ideal.Laws

set_option maxRecDepth 16384

noncomputable section

open scoped BigOperators

namespace Cert.ReferenceIdeal.RefLayers

open Cert.ReferenceIdeal Cert.ReferenceIdeal.Gen Cert.ReferenceIdeal.ReadP Idealize.ShloMosaic Idealize.ShloMosaic.TcCoe
  Idealize.ShloMosaic.ValueIdx

variable (x0 : (⟨S100000x512, .f32⟩ : BufTy).Contents (Elt Ideal)) (x1 : (⟨S2x1600000, .i32⟩ : BufTy).Contents (Elt Ideal)) (x2 : (⟨S512x128, .f32⟩ : BufTy).Contents (Elt Ideal))
  (x3 x4 x5 x6 x7 : (⟨S128, .f32⟩ : BufTy).Contents (Elt Ideal)) (x8 : (⟨S128x64, .f32⟩ : BufTy).Contents (Elt Ideal)) (x9 x10 x11 x12 x13 : (⟨S64, .f32⟩ : BufTy).Contents (Elt Ideal))
  (x14 : (⟨S64x2, .f32⟩ : BufTy).Contents (Elt Ideal)) (x15 : (⟨S2, .f32⟩ : BufTy).Contents (Elt Ideal))

/-! ## The dense projections -/

theorem plain27 : MatProd.Plain dot_S100000x512_S512x128_S100000x128_1_0_0_1_n_n :=
  ⟨Dot2.rank_contr _ rfl, Dot2.size_contr _ rfl _, Dot2.lhs0 _ rfl rfl, Dot2.lhs1 _ rfl _, Dot2.rhs0 _ rfl _, Dot2.rhs1 _ rfl rfl rfl rfl⟩
theorem plain64 : MatProd.Plain dot_S100000x128_S128x64_S100000x64_1_0_0_1_n_n :=
  ⟨Dot2.rank_contr _ rfl, Dot2.size_contr _ rfl _, Dot2.lhs0 _ rfl rfl, Dot2.lhs1 _ rfl _, Dot2.rhs0 _ rfl _, Dot2.rhs1 _ rfl rfl rfl rfl⟩
theorem plain103 : MatProd.Plain dot_S100000x64_S64x2_S100000x2_1_0_0_1_n_n :=
  ⟨Dot2.rank_contr _ rfl, Dot2.size_contr _ rfl _, Dot2.lhs0 _ rfl rfl, Dot2.lhs1 _ rfl _, Dot2.rhs0 _ rfl _, Dot2.rhs1 _ rfl rfl rfl rfl⟩

/-- The first projection is the product of the features and the first weight matrix. -/
theorem mm27 : val_main_v27 (F := Ideal) x0 x2 = MatProd.mm x0 x2 := by
  unfold val_main_v27
  exact MatProd.dotGeneral_mm plain27 none .single _ _

/-- The second projection is the product of the first layer's output and the second weight matrix. -/
theorem mm64 : val_main_v64 (F := Ideal) x0 x1 x2 x3 x4 x5 x6 x7 x8 = MatProd.mm (val_main_v63 (F := Ideal) x0 x1 x2 x3 x4 x5 x6 x7) x8 := by
  unfold val_main_v64
  exact MatProd.dotGeneral_mm plain64 none .single _ _

/-- The third projection is the product of the residual sum and the third weight matrix. -/
theorem mm103 : val_main_v103 (F := Ideal) x0 x1 x2 x3 x4 x5 x6 x7 x8 x9 x10 x11 x12 x13 x14 = MatProd.mm (val_main_v102 (F := Ideal) x0 x1 x2 x3 x4 x5 x6 x7 x8 x9 x10 x11 x12 x13) x14 := by
  unfold val_main_v103
  exact MatProd.dotGeneral_mm plain103 none .single _ _

/-! ## The first two layers' chains -/

/-- The first layer's output at (r, q). -/
theorem bn128_apply (r : Fin 100000) (q : Fin 128) :
    val_main_v63 (F := Ideal) x0 x1 x2 x3 x4 x5 x6 x7 (ix2 r q)
      = GcnEntry.bn (val_main_v40 (F := Ideal) x0 x1 x2 (ix2 r q)) (val_main_v27 (F := Ideal) x0 x2 (ix2 r q)) (val_main_v26 (F := Ideal) x1 (ix1 r))
          (x3 (ix1 q)) (x6 (ix1 q)) (x7 (ix1 q)) (x4 (ix1 q)) (x5 (ix1 q)) := by
  have isn : idx_main_v41 (idx_main_v42 (ix2 r q)) = ix1 r :=
    funext fun a => Fin.ext (by match a with | ⟨0, _⟩ => rfl)
  have ib : idx_main_v45 (idx_main_v46 (ix2 r q)) = ix1 q :=
    funext fun a => Fin.ext (by match a with | ⟨0, _⟩ => rfl)
  have imu : idx_main_v48 (idx_main_v49 (ix2 r q)) = ix1 q :=
    funext fun a => Fin.ext (by match a with | ⟨0, _⟩ => rfl)
  have ivar : idx_main_v54 (idx_main_v55 (ix2 r q)) = ix1 q :=
    funext fun a => Fin.ext (by match a with | ⟨0, _⟩ => rfl)
  have ig : idx_main_v57 (idx_main_v58 (ix2 r q)) = ix1 q :=
    funext fun a => Fin.ext (by match a with | ⟨0, _⟩ => rfl)
  have ibe : idx_main_v60 (idx_main_v61 (ix2 r q)) = ix1 q :=
    funext fun a => Fin.ext (by match a with | ⟨0, _⟩ => rfl)
  rw [val_main_v63_apply, val_main_v62_apply, val_main_v59_apply, val_main_v56_apply, val_main_v50_apply, val_main_v47_apply, val_main_v44_apply, val_main_v43_apply,
    val_main_v42_apply, val_main_v41_apply, isn, val_main_v46_apply, val_main_v45_apply, ib, val_main_v49_apply, val_main_v48_apply, imu,
    val_main_v55_apply, val_main_v54_apply, ivar, val_main_v53_apply, val_main_v52_apply, val_main_v51_apply, val_main_cst_8_apply,
    val_main_v58_apply, val_main_v57_apply, ig, val_main_v61_apply, val_main_v60_apply, ibe, val_main_call0_v0_apply, val_main_call0_cst_apply]
  generalize val_main_v40 (F := Ideal) x0 x1 x2 (ix2 r q) = a
  generalize val_main_v27 (F := Ideal) x0 x2 (ix2 r q) = h
  generalize val_main_v26 (F := Ideal) x1 (ix1 r) = s
  rfl

/-- The second layer's output at (r, q). -/
theorem bn64_apply (r : Fin 100000) (q : Fin 64) :
    val_main_v100 (F := Ideal) x0 x1 x2 x3 x4 x5 x6 x7 x8 x9 x10 x11 x12 x13 (ix2 r q)
      = GcnEntry.bn (val_main_v77 (F := Ideal) x0 x1 x2 x3 x4 x5 x6 x7 x8 (ix2 r q)) (val_main_v64 (F := Ideal) x0 x1 x2 x3 x4 x5 x6 x7 x8 (ix2 r q)) (val_main_v26 (F := Ideal) x1 (ix1 r))
          (x9 (ix1 q)) (x12 (ix1 q)) (x13 (ix1 q)) (x10 (ix1 q)) (x11 (ix1 q)) := by
  have isn : idx_main_v78 (idx_main_v79 (ix2 r q)) = ix1 r :=
    funext fun a => Fin.ext (by match a with | ⟨0, _⟩ => rfl)
  have ib : idx_main_v82 (idx_main_v83 (ix2 r q)) = ix1 q :=
    funext fun a => Fin.ext (by match a with | ⟨0, _⟩ => rfl)
  have imu : idx_main_v85 (idx_main_v86 (ix2 r q)) = ix1 q :=
    funext fun a => Fin.ext (by match a with | ⟨0, _⟩ => rfl)
  have ivar : idx_main_v91 (idx_main_v92 (ix2 r q)) = ix1 q :=
    funext fun a => Fin.ext (by match a with | ⟨0, _⟩ => rfl)
  have ig : idx_main_v94 (idx_main_v95 (ix2 r q)) = ix1 q :=
    funext fun a => Fin.ext (by match a with | ⟨0, _⟩ => rfl)
  have ibe : idx_main_v97 (idx_main_v98 (ix2 r q)) = ix1 q :=
    funext fun a => Fin.ext (by match a with | ⟨0, _⟩ => rfl)
  rw [val_main_v100_apply, val_main_v99_apply, val_main_v96_apply, val_main_v93_apply, val_main_v87_apply, val_main_v84_apply, val_main_v81_apply, val_main_v80_apply,
    val_main_v79_apply, val_main_v78_apply, isn, val_main_v83_apply, val_main_v82_apply, ib, val_main_v86_apply, val_main_v85_apply, imu,
    val_main_v92_apply, val_main_v91_apply, ivar, val_main_v90_apply, val_main_v89_apply, val_main_v88_apply, val_main_cst_12_apply,
    val_main_v95_apply, val_main_v94_apply, ig, val_main_v98_apply, val_main_v97_apply, ibe, val_main_call1_v0_apply, val_main_call1_cst_apply]
  generalize val_main_v77 (F := Ideal) x0 x1 x2 x3 x4 x5 x6 x7 x8 (ix2 r q) = a
  generalize val_main_v64 (F := Ideal) x0 x1 x2 x3 x4 x5 x6 x7 x8 (ix2 r q) = h
  generalize val_main_v26 (F := Ideal) x1 (ix1 r) = s
  rfl

/-! ## The last layer's chain -/

instance : Std.Commutative (FloatOps.maximumf (F := Ideal) (φ := .f32)) := ⟨fun a b => max_comm a b⟩
instance : Std.Associative (FloatOps.maximumf (F := Ideal) (φ := .f32)) := ⟨fun a b c => max_assoc a b c⟩

/-- The combined array (aggregate, self loop, bias) at (r, l). -/
theorem comb_apply (r : Fin 100000) (q : Fin 2) :
    val_main_v123 (F := Ideal) x0 x1 x2 x3 x4 x5 x6 x7 x8 x9 x10 x11 x12 x13 x14 x15 (ix2 r q)
      = GcnEntry.comb (val_main_v116 (F := Ideal) x0 x1 x2 x3 x4 x5 x6 x7 x8 x9 x10 x11 x12 x13 x14 (ix2 r q)) (val_main_v103 (F := Ideal) x0 x1 x2 x3 x4 x5 x6 x7 x8 x9 x10 x11 x12 x13 x14 (ix2 r q)) (val_main_v26 (F := Ideal) x1 (ix1 r)) (x15 (ix1 q)) := by
  have isn : idx_main_v117 (idx_main_v118 (ix2 r q)) = ix1 r :=
    funext fun a => Fin.ext (by match a with | ⟨0, _⟩ => rfl)
  have ib : idx_main_v121 (idx_main_v122 (ix2 r q)) = ix1 q :=
    funext fun a => Fin.ext (by match a with | ⟨0, _⟩ => rfl)
  rw [val_main_v123_apply, val_main_v120_apply, val_main_v119_apply, val_main_v118_apply, val_main_v117_apply, isn, val_main_v122_apply, val_main_v121_apply, ib]
  generalize val_main_v116 (F := Ideal) x0 x1 x2 x3 x4 x5 x6 x7 x8 x9 x10 x11 x12 x13 x14 (ix2 r q) = a
  generalize val_main_v103 (F := Ideal) x0 x1 x2 x3 x4 x5 x6 x7 x8 x9 x10 x11 x12 x13 x14 (ix2 r q) = h
  generalize val_main_v26 (F := Ideal) x1 (ix1 r) = s
  rfl

/-- Row r of the combined array. -/
def zrow (r : Fin 100000) : Fin 2 → EReal := fun l => val_main_v123 (F := Ideal) x0 x1 x2 x3 x4 x5 x6 x7 x8 x9 x10 x11 x12 x13 x14 x15 (ix2 r l)

theorem zrow_apply (r : Fin 100000) (l : Fin 2) : zrow x0 x1 x2 x3 x4 x5 x6 x7 x8 x9 x10 x11 x12 x13 x14 x15 r l = val_main_v123 (F := Ideal) x0 x1 x2 x3 x4 x5 x6 x7 x8 x9 x10 x11 x12 x13 x14 x15 (ix2 r l) := rfl

/-- A row of a two-column array, read through the reduction's own index map. -/
theorem lift_row (h : S100000x2.Reduces [1] S100000) (Z : S100000x2.Idx → EReal) (r : Fin 100000) :
    (Z ∘ h.lift (ix1 r)) = fun l : Fin 2 => Z (ix2 r l) :=
  funext fun l => congrArg Z (funext fun ax => Fin.ext (by
    match ax with | ⟨0, _⟩ => rfl | ⟨1, _⟩ => rfl))

/-- The host's row maximum (with its extra maximum against minus infinity) is the row's maximum. -/
theorem rowmax_apply (r : Fin 100000) :
    val_main_call2_v2 (F := Ideal) x0 x1 x2 x3 x4 x5 x6 x7 x8 x9 x10 x11 x12 x13 x14 x15 (ix1 r) = GcnEntry.rowMax (zrow x0 x1 x2 x3 x4 x5 x6 x7 x8 x9 x10 x11 x12 x13 x14 x15 r) := by
  have hr : S100000x2.Reduces [1] S100000 := by decide
  have hfold : val_main_call2_v0 (F := Ideal) x0 x1 x2 x3 x4 x5 x6 x7 x8 x9 x10 x11 x12 x13 x14 x15 (ix1 r) = GcnEntry.rowMax (zrow x0 x1 x2 x3 x4 x5 x6 x7 x8 x9 x10 x11 x12 x13 x14 x15 r) := by
    unfold val_main_call2_v0 zrow
    generalize val_main_v123 (F := Ideal) x0 x1 x2 x3 x4 x5 x6 x7 x8 x9 x10 x11 x12 x13 x14 x15 = Z
    refine (Host.reduce_eq_fold_single (FloatOps.maximumf (F := Ideal) (φ := .f32)) Z _ reducesTo_S100000x2_S100000_d1 hr h_S_ (ix1 r)).trans ?_
    rw [lift_row hr Z r]
    rfl
  rw [val_main_call2_v2_apply, val_main_call2_v1_apply, val_main_call2_cst_0_apply, hfold]
  exact GcnEntry.max_negInfF _

/-- The shifted row at (r, l). -/
theorem shifted_apply (r : Fin 100000) (l : Fin 2) :
    val_main_call2_v5 (F := Ideal) x0 x1 x2 x3 x4 x5 x6 x7 x8 x9 x10 x11 x12 x13 x14 x15 (ix2 r l) = zrow x0 x1 x2 x3 x4 x5 x6 x7 x8 x9 x10 x11 x12 x13 x14 x15 r l - GcnEntry.rowMax (zrow x0 x1 x2 x3 x4 x5 x6 x7 x8 x9 x10 x11 x12 x13 x14 x15 r) := by
  have i3 : idx_main_call2_v3 (idx_main_call2_v4 (ix2 r l)) = ix1 r :=
    funext fun a => Fin.ext (by match a with | ⟨0, _⟩ => rfl)
  rw [val_main_call2_v5_apply, val_main_call2_v4_apply, val_main_call2_v3_apply, i3, rowmax_apply, zrow_apply]
  generalize val_main_v123 (F := Ideal) x0 x1 x2 x3 x4 x5 x6 x7 x8 x9 x10 x11 x12 x13 x14 x15 (ix2 r l) = z
  generalize GcnEntry.rowMax (zrow x0 x1 x2 x3 x4 x5 x6 x7 x8 x9 x10 x11 x12 x13 x14 x15 r) = M
  rfl

/-- The reference's result at (r, q): the logarithm of the softmax of row r of the combined array. -/
theorem fin_apply (r : Fin 100000) (q : Fin 2) :
    val_main_v124 (F := Ideal) x0 x1 x2 x3 x4 x5 x6 x7 x8 x9 x10 x11 x12 x13 x14 x15 (ix2 r q) = GcnEntry.lsm (zrow x0 x1 x2 x3 x4 x5 x6 x7 x8 x9 x10 x11 x12 x13 x14 x15 r) q := by
  have i8 : idx_main_call2_v8 (idx_main_call2_v10 (ix2 r q)) = ix1 r :=
    funext fun a => Fin.ext (by match a with | ⟨0, _⟩ => rfl)
  have i7 : ∀ k : Fin 2, idx_main_call2_v7 (ix1 r) k = ix2 r k := fun k =>
    funext fun a => Fin.ext (by match a with | ⟨0, _⟩ => rfl | ⟨1, _⟩ => rfl)
  have hsum : ∑ k : Fin 2, val_main_call2_v6 (F := Ideal) x0 x1 x2 x3 x4 x5 x6 x7 x8 x9 x10 x11 x12 x13 x14 x15 (idx_main_call2_v7 (ix1 r) k)
      = ∑ k : Fin 2, Ideal.exp (zrow x0 x1 x2 x3 x4 x5 x6 x7 x8 x9 x10 x11 x12 x13 x14 x15 r k - GcnEntry.rowMax (zrow x0 x1 x2 x3 x4 x5 x6 x7 x8 x9 x10 x11 x12 x13 x14 x15 r)) :=
    Finset.sum_congr rfl fun k _ => by
      rw [i7 k, val_main_call2_v6_apply, shifted_apply]
      generalize zrow x0 x1 x2 x3 x4 x5 x6 x7 x8 x9 x10 x11 x12 x13 x14 x15 r k = z
      generalize GcnEntry.rowMax (zrow x0 x1 x2 x3 x4 x5 x6 x7 x8 x9 x10 x11 x12 x13 x14 x15 r) = M
      rfl
  rw [val_main_v124_apply, val_main_call2_v10_apply, val_main_call2_v9_apply, val_main_call2_v8_apply, i8,
    val_main_call2_v7_apply, val_main_call2_cst_1_apply, hsum, shifted_apply]
  unfold GcnEntry.lsm
  generalize zrow x0 x1 x2 x3 x4 x5 x6 x7 x8 x9 x10 x11 x12 x13 x14 x15 r = y
  show (y q - GcnEntry.rowMax y) - Ideal.log (Ideal.ofBits .f32 0x00000000#32 + ∑ k : Fin 2, Ideal.exp (y k - GcnEntry.rowMax y)) = _
  rw [Ideal.ofBits_zero_f32, zero_add]

end Cert.ReferenceIdeal.RefLayers

end
-- ==== Proof.Join.lean ====
/-
  The reference's layers as whole-array layers of reshaped parameters.

  The tiled program hands its layers the self-loop weights as a one-column array and each per-channel parameter as a
  one-row array (reshapes of the vectors the reference broadcasts).  Read at an entry both say the same: the
  reference's chain at (r, q) is "bn" (or, for the last layer, the logarithm of the softmax of the combined row) of the
  entries named there, and a vector reshaped to one column or one row reads, at (r, 0) or (0, q), the vector at r or q.
-/
import proofs.«120428_j80255758893109_1_alg».proof.Proof.RefLayers
import proofs.«120428_j80255758893109_1_alg».proof.Proof.LibRowCol
import Idealize.ShloMosaic.Lib.ValueLayout

set_option maxRecDepth 16384

noncomputable section

open scoped BigOperators

namespace Cert.ReferenceIdeal.Join

open Cert.ReferenceIdeal Cert.ReferenceIdeal.Gen Cert.ReferenceIdeal.ReadP Cert.ReferenceIdeal.RefLayers Idealize.ShloMosaic
  Idealize.ShloMosaic.TcCoe Idealize.ShloMosaic.ValueIdx

variable (x0 : (⟨S100000x512, .f32⟩ : BufTy).Contents (Elt Ideal)) (x1 : (⟨S2x1600000, .i32⟩ : BufTy).Contents (Elt Ideal)) (x2 : (⟨S512x128, .f32⟩ : BufTy).Contents (Elt Ideal))
  (x3 x4 x5 x6 x7 : (⟨S128, .f32⟩ : BufTy).Contents (Elt Ideal)) (x8 : (⟨S128x64, .f32⟩ : BufTy).Contents (Elt Ideal)) (x9 x10 x11 x12 x13 : (⟨S64, .f32⟩ : BufTy).Contents (Elt Ideal))
  (x14 : (⟨S64x2, .f32⟩ : BufTy).Contents (Elt Ideal)) (x15 : (⟨S2, .f32⟩ : BufTy).Contents (Elt Ideal))

/-- The first layer's output is the whole-array layer of the aggregate, the projection, the self-loop column and the
    five one-row parameters. -/
theorem bn128_join (hc : S100000.ShapeCasts S100000x1) (hp : S128.ShapeCasts S1x128) :
    val_main_v63 (F := Ideal) x0 x1 x2 x3 x4 x5 x6 x7
      = GcnEntry.bnArr (n := 100000) (k := 128) (val_main_v40 (F := Ideal) x0 x1 x2) (val_main_v27 (F := Ideal) x0 x2)
          (shapeCast S100000x1 (val_main_v26 (F := Ideal) x1) hc) (shapeCast S1x128 x3 hp) (shapeCast S1x128 x6 hp)
          (shapeCast S1x128 x7 hp) (shapeCast S1x128 x4 hp) (shapeCast S1x128 x5 hp) := by
  funext i
  obtain ⟨r, q, rfl⟩ : ∃ (r : Fin 100000) (q : Fin 128), i = ix2 r q := ⟨i 0, i 1, eq_ix2 i⟩
  rw [bn128_apply, GcnEntry.bnArr_ix2, RowCol.shapeCast_a_a1_apply (a := 100000) _ hc r 0,
    shapeCast_a_1a_apply (a := 128) x3 hp 0 q, shapeCast_a_1a_apply (a := 128) x6 hp 0 q, shapeCast_a_1a_apply (a := 128) x7 hp 0 q,
    shapeCast_a_1a_apply (a := 128) x4 hp 0 q, shapeCast_a_1a_apply (a := 128) x5 hp 0 q]

/-- The second layer's output, likewise. -/
theorem bn64_join (hc : S100000.ShapeCasts S100000x1) (hp : S64.ShapeCasts S1x64) :
    val_main_v100 (F := Ideal) x0 x1 x2 x3 x4 x5 x6 x7 x8 x9 x10 x11 x12 x13
      = GcnEntry.bnArr (n := 100000) (k := 64) (val_main_v77 (F := Ideal) x0 x1 x2 x3 x4 x5 x6 x7 x8) (val_main_v64 (F := Ideal) x0 x1 x2 x3 x4 x5 x6 x7 x8)
          (shapeCast S100000x1 (val_main_v26 (F := Ideal) x1) hc) (shapeCast S1x64 x9 hp) (shapeCast S1x64 x12 hp)
          (shapeCast S1x64 x13 hp) (shapeCast S1x64 x10 hp) (shapeCast S1x64 x11 hp) := by
  funext i
  obtain ⟨r, q, rfl⟩ : ∃ (r : Fin 100000) (q : Fin 64), i = ix2 r q := ⟨i 0, i 1, eq_ix2 i⟩
  rw [bn64_apply, GcnEntry.bnArr_ix2, RowCol.shapeCast_a_a1_apply (a := 100000) _ hc r 0,
    shapeCast_a_1a_apply (a := 64) x9 hp 0 q, shapeCast_a_1a_apply (a := 64) x12 hp 0 q, shapeCast_a_1a_apply (a := 64) x13 hp 0 q,
    shapeCast_a_1a_apply (a := 64) x10 hp 0 q, shapeCast_a_1a_apply (a := 64) x11 hp 0 q]

/-- The reference's result is the whole-array last layer of the aggregate, the projection, the self-loop column and the
    one-row bias. -/
theorem fin_join (hc : S100000.ShapeCasts S100000x1) (hp : S2.ShapeCasts S1x2) :
    val_main_v124 (F := Ideal) x0 x1 x2 x3 x4 x5 x6 x7 x8 x9 x10 x11 x12 x13 x14 x15
      = GcnEntry.finArr (n := 100000) (k := 2) (val_main_v116 (F := Ideal) x0 x1 x2 x3 x4 x5 x6 x7 x8 x9 x10 x11 x12 x13 x14) (val_main_v103 (F := Ideal) x0 x1 x2 x3 x4 x5 x6 x7 x8 x9 x10 x11 x12 x13 x14)
          (shapeCast S100000x1 (val_main_v26 (F := Ideal) x1) hc) (shapeCast S1x2 x15 hp) := by
  funext i
  obtain ⟨r, q, rfl⟩ : ∃ (r : Fin 100000) (q : Fin 2), i = ix2 r q := ⟨i 0, i 1, eq_ix2 i⟩
  rw [fin_apply, GcnEntry.finArr_ix2]
  refine congrArg (fun y => GcnEntry.lsm y q) (funext fun l => ?_)
  rw [zrow_apply]
  unfold GcnEntry.combRow
  rw [RowCol.shapeCast_a_a1_apply (a := 100000) _ hc r 0, shapeCast_a_1a_apply (a := 2) x15 hp 0 l]
  exact comb_apply x0 x1 x2 x3 x4 x5 x6 x7 x8 x9 x10 x11 x12 x13 x14 x15 r l

end Cert.ReferenceIdeal.Join

end
-- ==== Proof.Walk.lean ====
/-
  The tiled program's result array, traced from the last boundary back to the launch.

  The contents at each boundary of the program are a fold from the launch memory.  A stretch of host operations
  computes its results from the contents before it and leaves every other array alone; a tiled region leaves its
  output array at its whole-array layer of the arrays it finds (the six region modules) and every other array alone.
  Walking forward: the index and normalisation arrays computed before the first region stay put to the end; each
  dense projection, each aggregation (gather along the edges, scale, scatter-add) and each layer then holds exactly
  the corresponding stage of the reference, as a function of the launch arrays.  At the last boundary the result
  array holds the reference's last stage.
-/
import proofs.«120428_j80255758893109_1_alg».proof.Proof.Gen.KernelIdeal.Frame
import proofs.«120428_j80255758893109_1_alg».proof.Proof.K0
import proofs.«120428_j80255758893109_1_alg».proof.Proof.K1
import proofs.«120428_j80255758893109_1_alg».proof.Proof.K2
import proofs.«120428_j80255758893109_1_alg».proof.Proof.K3
import proofs.«120428_j80255758893109_1_alg».proof.Proof.K4
import proofs.«120428_j80255758893109_1_alg».proof.Proof.K5
import proofs.«120428_j80255758893109_1_alg».proof.Proof.Join
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo
open Cert.ReferenceIdeal.ReadP

/-! ## The stretches of host operations, over any contents -/

section Host

variable (W : Valuation τ sig (Elt Ideal))

/-- Before the first region: the two index arrays, the edge weights and the self-loop weights, from the edge list. -/
theorem h0_v1 : after hostOps0 W (Proc.devRef .tc main_v1) = val_main_v1 (F := Ideal) (W (Proc.devRef .tc main_arg1)) := by
  after_results_simp
  unfold val_main_v1 val_main_v0
  generalize W (Proc.devRef .tc main_arg1) = A1
  try rfl
theorem h0_v3 : after hostOps0 W (Proc.devRef .tc main_v3) = val_main_v3 (F := Ideal) (W (Proc.devRef .tc main_arg1)) := by
  after_results_simp
  unfold val_main_v3 val_main_v2
  generalize W (Proc.devRef .tc main_arg1) = A1
  try rfl
theorem h0_v25 : after hostOps0 W (Proc.devRef .tc main_v25) = val_main_v25 (F := Ideal) (W (Proc.devRef .tc main_arg1)) := by
  after_results_simp
  unfold val_main_v25 val_main_v24 val_main_v23 val_main_v22 val_main_v21 val_main_v20 val_main_c_4 val_main_v19 val_main_v18 val_main_c_3 val_main_v17 val_main_v16 val_main_v15 val_main_v14 val_main_v13 val_main_c_2 val_main_v12 val_main_v11 val_main_c val_main_v10 val_main_v9 val_main_v8 val_main_cst_1 val_main_v7 val_main_v6 val_main_v5 val_main_cst_0 val_main_v4 val_main_cst val_main_v3 val_main_v2 val_main_v1 val_main_v0
  generalize W (Proc.devRef .tc main_arg1) = A1
  try rfl
theorem h0_v26 : after hostOps0 W (Proc.devRef .tc main_v26) = val_main_v26 (F := Ideal) (W (Proc.devRef .tc main_arg1)) := by
  after_results_simp
  unfold val_main_v26 val_main_v10 val_main_v9 val_main_v8 val_main_cst_1 val_main_v7 val_main_v6 val_main_v5 val_main_cst_0 val_main_v4 val_main_cst val_main_v3 val_main_v2
  generalize W (Proc.devRef .tc main_arg1) = A1
  try rfl

set_option maxHeartbeats 2000000 in
/-- The first aggregation: gather the projected rows along the edges, scale by the edge weights, scatter-add. -/
theorem h1_v40 (x0 : (⟨Cert.ReferenceIdeal.S100000x512, .f32⟩ : BufTy).Contents (Elt Ideal)) (x1 : (⟨Cert.ReferenceIdeal.S2x1600000, .i32⟩ : BufTy).Contents (Elt Ideal)) (x2 : (⟨Cert.ReferenceIdeal.S512x128, .f32⟩ : BufTy).Contents (Elt Ideal))
    (h27 : W (Proc.devRef .tc main_v27) = val_main_v27 (F := Ideal) x0 x2) (h1 : W (Proc.devRef .tc main_v1) = val_main_v1 (F := Ideal) x1)
    (h3 : W (Proc.devRef .tc main_v3) = val_main_v3 (F := Ideal) x1) (h25 : W (Proc.devRef .tc main_v25) = val_main_v25 (F := Ideal) x1) :
    after hostOps1 W (Proc.devRef .tc main_v40) = val_main_v40 (F := Ideal) x0 x1 x2 := by
  after_results_simp
  rw [h27, h1, h3, h25]
  unfold val_main_v40 val_main_v39 val_main_v38 val_main_cst_7 val_main_v37 val_main_v36 val_main_v35 val_main_v34 val_main_v33 val_main_v32 val_main_v31 val_main_v30 val_main_c_6 val_main_v29 val_main_v28 val_main_c_5
  generalize val_main_v27 (F := Ideal) x0 x2 = H
  generalize val_main_v1 (F := Ideal) x1 = S1
  generalize val_main_v3 (F := Ideal) x1 = S3
  generalize val_main_v25 (F := Ideal) x1 = E
  rfl
theorem h1_v41 : after hostOps1 W (Proc.devRef .tc main_v41) = shapeCast S100000x1 (W (Proc.devRef .tc main_v26)) shapeCasts_S100000_S100000x1 := by
  after_results
  try rfl
theorem h1_v42 : after hostOps1 W (Proc.devRef .tc main_v42) = shapeCast S1x128 (W (Proc.devRef .tc main_arg3)) shapeCasts_S128_S1x128 := by
  after_results
  try rfl
theorem h1_v43 : after hostOps1 W (Proc.devRef .tc main_v43) = shapeCast S1x128 (W (Proc.devRef .tc main_arg4)) shapeCasts_S128_S1x128 := by
  after_results
  try rfl
theorem h1_v44 : after hostOps1 W (Proc.devRef .tc main_v44) = shapeCast S1x128 (W (Proc.devRef .tc main_arg5)) shapeCasts_S128_S1x128 := by
  after_results
  try rfl
theorem h1_v45 : after hostOps1 W (Proc.devRef .tc main_v45) = shapeCast S1x128 (W (Proc.devRef .tc main_arg6)) shapeCasts_S128_S1x128 := by
  after_results
  try rfl
theorem h1_v46 : after hostOps1 W (Proc.devRef .tc main_v46) = shapeCast S1x128 (W (Proc.devRef .tc main_arg7)) shapeCasts_S128_S1x128 := by
  after_results
  try rfl

set_option maxHeartbeats 2000000 in
/-- The second aggregation. -/
theorem h3_v61 (x0 : (⟨Cert.ReferenceIdeal.S100000x512, .f32⟩ : BufTy).Contents (Elt Ideal)) (x1 : (⟨Cert.ReferenceIdeal.S2x1600000, .i32⟩ : BufTy).Contents (Elt Ideal)) (x2 : (⟨Cert.ReferenceIdeal.S512x128, .f32⟩ : BufTy).Contents (Elt Ideal)) (x3 : (⟨Cert.ReferenceIdeal.S128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal))
    (h48 : W (Proc.devRef .tc main_v48) = val_main_v64 (F := Ideal) x0 x1 x2 x3 x4 x5 x6 x7 x8) (h1 : W (Proc.devRef .tc main_v1) = val_main_v1 (F := Ideal) x1)
    (h3 : W (Proc.devRef .tc main_v3) = val_main_v3 (F := Ideal) x1) (h25 : W (Proc.devRef .tc main_v25) = val_main_v25 (F := Ideal) x1) :
    after hostOps3 W (Proc.devRef .tc main_v61) = val_main_v77 (F := Ideal) x0 x1 x2 x3 x4 x5 x6 x7 x8 := by
  after_results_simp
  rw [h48, h1, h3, h25]
  unfold val_main_v77 val_main_v76 val_main_v75 val_main_cst_11 val_main_v74 val_main_v73 val_main_v72 val_main_v71 val_main_v70 val_main_v69 val_main_v68 val_main_v67 val_main_c_10 val_main_v66 val_main_v65 val_main_c_9
  generalize val_main_v64 (F := Ideal) x0 x1 x2 x3 x4 x5 x6 x7 x8 = H
  generalize val_main_v1 (F := Ideal) x1 = S1
  generalize val_main_v3 (F := Ideal) x1 = S3
  generalize val_main_v25 (F := Ideal) x1 = E
  rfl
theorem h3_v62 : after hostOps3 W (Proc.devRef .tc main_v62) = shapeCast S100000x1 (W (Proc.devRef .tc main_v26)) shapeCasts_S100000_S100000x1 := by
  after_results
  try rfl
theorem h3_v63 : after hostOps3 W (Proc.devRef .tc main_v63) = shapeCast S1x64 (W (Proc.devRef .tc main_arg9)) shapeCasts_S64_S1x64 := by
  after_results
  try rfl
theorem h3_v64 : after hostOps3 W (Proc.devRef .tc main_v64) = shapeCast S1x64 (W (Proc.devRef .tc main_arg10)) shapeCasts_S64_S1x64 := by
  after_results
  try rfl
theorem h3_v65 : after hostOps3 W (Proc.devRef .tc main_v65) = shapeCast S1x64 (W (Proc.devRef .tc main_arg11)) shapeCasts_S64_S1x64 := by
  after_results
  try rfl
theorem h3_v66 : after hostOps3 W (Proc.devRef .tc main_v66) = shapeCast S1x64 (W (Proc.devRef .tc main_arg12)) shapeCasts_S64_S1x64 := by
  after_results
  try rfl
theorem h3_v67 : after hostOps3 W (Proc.devRef .tc main_v67) = shapeCast S1x64 (W (Proc.devRef .tc main_arg13)) shapeCasts_S64_S1x64 := by
  after_results
  try rfl

/-- The residual sum: the first 64 columns of the first layer's output plus the second layer's output. -/
theorem h4_v70 (x0 : (⟨Cert.ReferenceIdeal.S100000x512, .f32⟩ : BufTy).Contents (Elt Ideal)) (x1 : (⟨Cert.ReferenceIdeal.S2x1600000, .i32⟩ : BufTy).Contents (Elt Ideal)) (x2 : (⟨Cert.ReferenceIdeal.S512x128, .f32⟩ : BufTy).Contents (Elt Ideal)) (x3 : (⟨Cert.ReferenceIdeal.S128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64, .f32⟩ : BufTy).Contents (Elt Ideal)) (x11 : (⟨Cert.ReferenceIdeal.S64, .f32⟩ : BufTy).Contents (Elt Ideal)) (x12 : (⟨Cert.ReferenceIdeal.S64, .f32⟩ : BufTy).Contents (Elt Ideal)) (x13 : (⟨Cert.ReferenceIdeal.S64, .f32⟩ : BufTy).Contents (Elt Ideal))
    (h47 : W (Proc.devRef .tc main_v47) = val_main_v63 (F := Ideal) x0 x1 x2 x3 x4 x5 x6 x7) (h68 : W (Proc.devRef .tc main_v68) = val_main_v100 (F := Ideal) x0 x1 x2 x3 x4 x5 x6 x7 x8 x9 x10 x11 x12 x13) :
    after hostOps4 W (Proc.devRef .tc main_v70) = val_main_v102 (F := Ideal) x0 x1 x2 x3 x4 x5 x6 x7 x8 x9 x10 x11 x12 x13 := by
  after_results
  rw [h47, h68]
  unfold val_main_v102 val_main_v101
  generalize val_main_v63 (F := Ideal) x0 x1 x2 x3 x4 x5 x6 x7 = X1
  generalize val_main_v100 (F := Ideal) x0 x1 x2 x3 x4 x5 x6 x7 x8 x9 x10 x11 x12 x13 = X2
  rfl

set_option maxHeartbeats 2000000 in
/-- The third aggregation. -/
theorem h5_v84 (x0 : (⟨Cert.ReferenceIdeal.S100000x512, .f32⟩ : BufTy).Contents (Elt Ideal)) (x1 : (⟨Cert.ReferenceIdeal.S2x1600000, .i32⟩ : BufTy).Contents (Elt Ideal)) (x2 : (⟨Cert.ReferenceIdeal.S512x128, .f32⟩ : BufTy).Contents (Elt Ideal)) (x3 : (⟨Cert.ReferenceIdeal.S128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64, .f32⟩ : BufTy).Contents (Elt Ideal)) (x11 : (⟨Cert.ReferenceIdeal.S64, .f32⟩ : BufTy).Contents (Elt Ideal)) (x12 : (⟨Cert.ReferenceIdeal.S64, .f32⟩ : BufTy).Contents (Elt Ideal)) (x13 : (⟨Cert.ReferenceIdeal.S64, .f32⟩ : BufTy).Contents (Elt Ideal)) (x14 : (⟨Cert.ReferenceIdeal.S64x2, .f32⟩ : BufTy).Contents (Elt Ideal))
    (h71 : W (Proc.devRef .tc main_v71) = val_main_v103 (F := Ideal) x0 x1 x2 x3 x4 x5 x6 x7 x8 x9 x10 x11 x12 x13 x14) (h1 : W (Proc.devRef .tc main_v1) = val_main_v1 (F := Ideal) x1)
    (h3 : W (Proc.devRef .tc main_v3) = val_main_v3 (F := Ideal) x1) (h25 : W (Proc.devRef .tc main_v25) = val_main_v25 (F := Ideal) x1) :
    after hostOps5 W (Proc.devRef .tc main_v84) = val_main_v116 (F := Ideal) x0 x1 x2 x3 x4 x5 x6 x7 x8 x9 x10 x11 x12 x13 x14 := by
  after_results_simp
  rw [h71, h1, h3, h25]
  unfold val_main_v116 val_main_v115 val_main_v114 val_main_cst_15 val_main_v113 val_main_v112 val_main_v111 val_main_v110 val_main_v109 val_main_v108 val_main_v107 val_main_v106 val_main_c_14 val_main_v105 val_main_v104 val_main_c_13
  generalize val_main_v103 (F := Ideal) x0 x1 x2 x3 x4 x5 x6 x7 x8 x9 x10 x11 x12 x13 x14 = H
  generalize val_main_v1 (F := Ideal) x1 = S1
  generalize val_main_v3 (F := Ideal) x1 = S3
  generalize val_main_v25 (F := Ideal) x1 = E
  rfl
theorem h5_v85 : after hostOps5 W (Proc.devRef .tc main_v85) = shapeCast S100000x1 (W (Proc.devRef .tc main_v26)) shapeCasts_S100000_S100000x1 := by
  after_results
  try rfl
theorem h5_v86 : after hostOps5 W (Proc.devRef .tc main_v86) = shapeCast S1x2 (W (Proc.devRef .tc main_arg15)) shapeCasts_S2_S1x2 := by
  after_results
  try rfl

/-- A stretch leaves every array it does not write as it found it. -/
theorem keepH (ops : List (HloOp τ sig (Elt Ideal))) (b : Ref sig .tc) (hb : ∀ op ∈ ops, Proc.devRef .tc b ∉ op.writes) :
    after ops W (Proc.devRef .tc b) = W (Proc.devRef .tc b) :=
  after_of_forall_not_mem (b := Proc.devRef .tc b) ops W hb

end Host

/-! ## The boundaries -/

variable (m : (ℓ : Loc nD τ sig) → Buf (Elt Ideal) ℓ) (ρ : Dev nD → PrngReg) (c : Dev nD)

/-- Region 0 leaves every array it does not write as it found it. -/
theorem keep0 (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut
      · rfl
      · exact absurd rfl (hb w hw)
    exact (W2_arr m ρ c w).trans (((dat0 (V1 m ρ) c).arrAt_in w hin _).trans (A_eq0 (V1 m ρ) c w))
  · exact W2_of_ne m ρ c b fun w e => h ⟨w, e⟩

/-- Region 1 leaves every array it does not write as it found it. -/
theorem keep1 (b : Ref sig .tc) (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hw : (cfg1.win w).isOut
      · rfl
      · exact absurd rfl (hb w hw)
    exact (W4_arr m ρ c w).trans (((dat1 (V3 m ρ) c).arrAt_in w hin _).trans (A_eq1 (V3 m ρ) c w))
  · exact W4_of_ne m ρ c b fun w e => h ⟨w, e⟩

/-- Region 2 leaves every array it does not write as it found it. -/
theorem keep2 (b : Ref sig .tc) (hb : ∀ w, (cfg2.win w).isOut = true → Pipeline.arrRef spec2 w ≠ b) :
    W5 m ρ c (Proc.devRef .tc b) = W4 m ρ c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    exact (W5_arr m ρ c w).trans (((dat2 (V4 m ρ) c).arrAt_in w hin _).trans (A_eq2 (V4 m ρ) c w))
  · exact W5_of_ne m ρ c b fun w e => h ⟨w, e⟩

/-- Region 3 leaves every array it does not write as it found it. -/
theorem keep3 (b : Ref sig .tc) (hb : ∀ w, (cfg3.win w).isOut = true → Pipeline.arrRef spec3 w ≠ b) :
    W7 m ρ c (Proc.devRef .tc b) = W6 m ρ c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    exact (W7_arr m ρ c w).trans (((dat3 (V6 m ρ) c).arrAt_in w hin _).trans (A_eq3 (V6 m ρ) c w))
  · exact W7_of_ne m ρ c b fun w e => h ⟨w, e⟩

/-- Region 4 leaves every array it does not write as it found it. -/
theorem keep4 (b : Ref sig .tc) (hb : ∀ w, (cfg4.win w).isOut = true → Pipeline.arrRef spec4 w ≠ b) :
    W9 m ρ c (Proc.devRef .tc b) = W8 m ρ c (Proc.devRef .tc b) := by
  by_cases h : ∃ w, Pipeline.arrRef spec4 w = b
  · obtain ⟨w, rfl⟩ := h
    have hin : (cfg4.win w).isOut = false := by
      cases hw : (cfg4.win w).isOut
      · rfl
      · exact absurd rfl (hb w hw)
    exact (W9_arr m ρ c w).trans (((dat4 (V8 m ρ) c).arrAt_in w hin _).trans (A_eq4 (V8 m ρ) c w))
  · exact W9_of_ne m ρ c b fun w e => h ⟨w, e⟩

/-- An array that no region before the last writes and no stretch of host operations after the first writes. -/
structure Persist (b : Ref sig .tc) : Prop where
  o0 : ∀ w, (cfg0.win w).isOut = true → Pipeline.arrRef spec0 w ≠ b
  o1 : ∀ w, (cfg1.win w).isOut = true → Pipeline.arrRef spec1 w ≠ b
  o2 : ∀ w, (cfg2.win w).isOut = true → Pipeline.arrRef spec2 w ≠ b
  o3 : ∀ w, (cfg3.win w).isOut = true → Pipeline.arrRef spec3 w ≠ b
  o4 : ∀ w, (cfg4.win w).isOut = true → Pipeline.arrRef spec4 w ≠ b
  n1 : ∀ op ∈ (hostOps1 : List (HloOp τ sig (Elt Ideal))), Proc.devRef .tc b ∉ op.writes
  n3 : ∀ op ∈ (hostOps3 : List (HloOp τ sig (Elt Ideal))), Proc.devRef .tc b ∉ op.writes
  n4 : ∀ op ∈ (hostOps4 : List (HloOp τ sig (Elt Ideal))), Proc.devRef .tc b ∉ op.writes

section PersistWalk
variable {b : Ref sig .tc} (hP : Persist b)
include hP
theorem p2 : W2 m ρ c (Proc.devRef .tc b) = W1 m ρ c (Proc.devRef .tc b) := keep0 m ρ c b hP.o0
theorem p3 : W3 m ρ c (Proc.devRef .tc b) = W1 m ρ c (Proc.devRef .tc b) := (keepH (W2 m ρ c) hostOps1 b hP.n1).trans (p2 m ρ c hP)
theorem p4 : W4 m ρ c (Proc.devRef .tc b) = W1 m ρ c (Proc.devRef .tc b) := (keep1 m ρ c b hP.o1).trans (p3 m ρ c hP)
theorem p5 : W5 m ρ c (Proc.devRef .tc b) = W1 m ρ c (Proc.devRef .tc b) := (keep2 m ρ c b hP.o2).trans (p4 m ρ c hP)
theorem p6 : W6 m ρ c (Proc.devRef .tc b) = W1 m ρ c (Proc.devRef .tc b) := (keepH (W5 m ρ c) hostOps3 b hP.n3).trans (p5 m ρ c hP)
theorem p7 : W7 m ρ c (Proc.devRef .tc b) = W1 m ρ c (Proc.devRef .tc b) := (keep3 m ρ c b hP.o3).trans (p6 m ρ c hP)
theorem p8 : W8 m ρ c (Proc.devRef .tc b) = W1 m ρ c (Proc.devRef .tc b) := (keepH (W7 m ρ c) hostOps4 b hP.n4).trans (p7 m ρ c hP)
theorem p9 : W9 m ρ c (Proc.devRef .tc b) = W1 m ρ c (Proc.devRef .tc b) := (keep4 m ρ c b hP.o4).trans (p8 m ρ c hP)
end PersistWalk

theorem P_main_v1 : Persist main_v1 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_v3 : Persist main_v3 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_v25 : Persist main_v25 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_v26 : Persist main_v26 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg3 : Persist main_arg3 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg4 : Persist main_arg4 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg5 : Persist main_arg5 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg6 : Persist main_arg6 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg7 : Persist main_arg7 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg8 : Persist main_arg8 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg9 : Persist main_arg9 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg10 : Persist main_arg10 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg11 : Persist main_arg11 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg12 : Persist main_arg12 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg13 : Persist main_arg13 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg14 : Persist main_arg14 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩
theorem P_main_arg15 : Persist main_arg15 :=
  ⟨by decide, by decide, by decide, by decide, by decide,
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)),
    List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))⟩

/-! ### Before the first region -/

theorem w1_arg0 : W1 m ρ c (Proc.devRef .tc main_arg0) = m ((c : Thread nD τ).loc main_arg0) := by
  show after hostOps0 (W0 m ρ c) (Proc.devRef .tc main_arg0) = _
  after_results_simp
  try rfl
theorem w1_arg2 : W1 m ρ c (Proc.devRef .tc main_arg2) = m ((c : Thread nD τ).loc main_arg2) := by
  show after hostOps0 (W0 m ρ c) (Proc.devRef .tc main_arg2) = _
  after_results_simp
  try rfl
theorem w1_arg3 : W1 m ρ c (Proc.devRef .tc main_arg3) = m ((c : Thread nD τ).loc main_arg3) := by
  show after hostOps0 (W0 m ρ c) (Proc.devRef .tc main_arg3) = _
  after_results_simp
  try rfl
theorem w1_arg4 : W1 m ρ c (Proc.devRef .tc main_arg4) = m ((c : Thread nD τ).loc main_arg4) := by
  show after hostOps0 (W0 m ρ c) (Proc.devRef .tc main_arg4) = _
  after_results_simp
  try rfl
theorem w1_arg5 : W1 m ρ c (Proc.devRef .tc main_arg5) = m ((c : Thread nD τ).loc main_arg5) := by
  show after hostOps0 (W0 m ρ c) (Proc.devRef .tc main_arg5) = _
  after_results_simp
  try rfl
theorem w1_arg6 : W1 m ρ c (Proc.devRef .tc main_arg6) = m ((c : Thread nD τ).loc main_arg6) := by
  show after hostOps0 (W0 m ρ c) (Proc.devRef .tc main_arg6) = _
  after_results_simp
  try rfl
theorem w1_arg7 : W1 m ρ c (Proc.devRef .tc main_arg7) = m ((c : Thread nD τ).loc main_arg7) := by
  show after hostOps0 (W0 m ρ c) (Proc.devRef .tc main_arg7) = _
  after_results_simp
  try rfl
theorem w1_arg8 : W1 m ρ c (Proc.devRef .tc main_arg8) = m ((c : Thread nD τ).loc main_arg8) := by
  show after hostOps0 (W0 m ρ c) (Proc.devRef .tc main_arg8) = _
  after_results_simp
  try rfl
theorem w1_arg9 : W1 m ρ c (Proc.devRef .tc main_arg9) = m ((c : Thread nD τ).loc main_arg9) := by
  show after hostOps0 (W0 m ρ c) (Proc.devRef .tc main_arg9) = _
  after_results_simp
  try rfl
theorem w1_arg10 : W1 m ρ c (Proc.devRef .tc main_arg10) = m ((c : Thread nD τ).loc main_arg10) := by
  show after hostOps0 (W0 m ρ c) (Proc.devRef .tc main_arg10) = _
  after_results_simp
  try rfl
theorem w1_arg11 : W1 m ρ c (Proc.devRef .tc main_arg11) = m ((c : Thread nD τ).loc main_arg11) := by
  show after hostOps0 (W0 m ρ c) (Proc.devRef .tc main_arg11) = _
  after_results_simp
  try rfl
theorem w1_arg12 : W1 m ρ c (Proc.devRef .tc main_arg12) = m ((c : Thread nD τ).loc main_arg12) := by
  show after hostOps0 (W0 m ρ c) (Proc.devRef .tc main_arg12) = _
  after_results_simp
  try rfl
theorem w1_arg13 : W1 m ρ c (Proc.devRef .tc main_arg13) = m ((c : Thread nD τ).loc main_arg13) := by
  show after hostOps0 (W0 m ρ c) (Proc.devRef .tc main_arg13) = _
  after_results_simp
  try rfl
theorem w1_arg14 : W1 m ρ c (Proc.devRef .tc main_arg14) = m ((c : Thread nD τ).loc main_arg14) := by
  show after hostOps0 (W0 m ρ c) (Proc.devRef .tc main_arg14) = _
  after_results_simp
  try rfl
theorem w1_arg15 : W1 m ρ c (Proc.devRef .tc main_arg15) = m ((c : Thread nD τ).loc main_arg15) := by
  show after hostOps0 (W0 m ρ c) (Proc.devRef .tc main_arg15) = _
  after_results_simp
  try rfl
theorem w1_v1 : W1 m ρ c (Proc.devRef .tc main_v1) = val_main_v1 (F := Ideal) (m ((c : Thread nD τ).loc main_arg1)) := h0_v1 (W0 m ρ c)
theorem w1_v3 : W1 m ρ c (Proc.devRef .tc main_v3) = val_main_v3 (F := Ideal) (m ((c : Thread nD τ).loc main_arg1)) := h0_v3 (W0 m ρ c)
theorem w1_v25 : W1 m ρ c (Proc.devRef .tc main_v25) = val_main_v25 (F := Ideal) (m ((c : Thread nD τ).loc main_arg1)) := h0_v25 (W0 m ρ c)
theorem w1_v26 : W1 m ρ c (Proc.devRef .tc main_v26) = val_main_v26 (F := Ideal) (m ((c : Thread nD τ).loc main_arg1)) := h0_v26 (W0 m ρ c)

/-! ### The first layer -/

/-- After region 0 the first projection holds the reference's. -/
theorem w2_v27 : W2 m ρ c (Proc.devRef .tc main_v27) = val_main_v27 (F := Ideal) (m ((c : Thread nD τ).loc main_arg0)) (m ((c : Thread nD τ).loc main_arg2)) := by
  refine (W2_arr m ρ c 2).trans ((K0.final (V1 m ρ) c).trans ?_)
  show MatProd.mm (W1 m ρ c (Proc.devRef .tc main_arg0)) (W1 m ρ c (Proc.devRef .tc main_arg2)) = _
  rw [w1_arg0, w1_arg2]
  exact (Cert.ReferenceIdeal.RefLayers.mm27 _ _).symm

theorem w3_v27 : W3 m ρ c (Proc.devRef .tc main_v27) = val_main_v27 (F := Ideal) (m ((c : Thread nD τ).loc main_arg0)) (m ((c : Thread nD τ).loc main_arg2)) :=
  (keepH (W2 m ρ c) hostOps1 main_v27 (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (w2_v27 m ρ c)
theorem w3_v40 : W3 m ρ c (Proc.devRef .tc main_v40) = val_main_v40 (F := Ideal) (m ((c : Thread nD τ).loc main_arg0)) (m ((c : Thread nD τ).loc main_arg1)) (m ((c : Thread nD τ).loc main_arg2)) :=
  h1_v40 (W2 m ρ c) _ _ _ (w2_v27 m ρ c) ((p2 m ρ c P_main_v1).trans (w1_v1 m ρ c)) ((p2 m ρ c P_main_v3).trans (w1_v3 m ρ c))
    ((p2 m ρ c P_main_v25).trans (w1_v25 m ρ c))
theorem w3_v41 : W3 m ρ c (Proc.devRef .tc main_v41) = shapeCast S100000x1 (val_main_v26 (F := Ideal) (m ((c : Thread nD τ).loc main_arg1))) shapeCasts_S100000_S100000x1 := by
  refine (h1_v41 (W2 m ρ c)).trans ?_
  rw [p2 m ρ c P_main_v26, w1_v26]
theorem w3_v42 : W3 m ρ c (Proc.devRef .tc main_v42) = shapeCast S1x128 (m ((c : Thread nD τ).loc main_arg3)) shapeCasts_S128_S1x128 := by
  refine (h1_v42 (W2 m ρ c)).trans ?_
  rw [p2 m ρ c P_main_arg3, w1_arg3]
theorem w3_v43 : W3 m ρ c (Proc.devRef .tc main_v43) = shapeCast S1x128 (m ((c : Thread nD τ).loc main_arg4)) shapeCasts_S128_S1x128 := by
  refine (h1_v43 (W2 m ρ c)).trans ?_
  rw [p2 m ρ c P_main_arg4, w1_arg4]
theorem w3_v44 : W3 m ρ c (Proc.devRef .tc main_v44) = shapeCast S1x128 (m ((c : Thread nD τ).loc main_arg5)) shapeCasts_S128_S1x128 := by
  refine (h1_v44 (W2 m ρ c)).trans ?_
  rw [p2 m ρ c P_main_arg5, w1_arg5]
theorem w3_v45 : W3 m ρ c (Proc.devRef .tc main_v45) = shapeCast S1x128 (m ((c : Thread nD τ).loc main_arg6)) shapeCasts_S128_S1x128 := by
  refine (h1_v45 (W2 m ρ c)).trans ?_
  rw [p2 m ρ c P_main_arg6, w1_arg6]
theorem w3_v46 : W3 m ρ c (Proc.devRef .tc main_v46) = shapeCast S1x128 (m ((c : Thread nD τ).loc main_arg7)) shapeCasts_S128_S1x128 := by
  refine (h1_v46 (W2 m ρ c)).trans ?_
  rw [p2 m ρ c P_main_arg7, w1_arg7]

/-- After region 1 the first layer's output holds the reference's. -/
theorem w4_v47 : W4 m ρ c (Proc.devRef .tc main_v47) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 8).trans ((K1.final (V3 m ρ) c).trans ?_)
  show GcnEntry.bnArr (n := 100000) (k := 128) (W3 m ρ c (Proc.devRef .tc main_v40)) (W3 m ρ c (Proc.devRef .tc main_v27)) (W3 m ρ c (Proc.devRef .tc main_v41))
    (W3 m ρ c (Proc.devRef .tc main_v42)) (W3 m ρ c (Proc.devRef .tc main_v45)) (W3 m ρ c (Proc.devRef .tc main_v46)) (W3 m ρ c (Proc.devRef .tc main_v43)) (W3 m ρ c (Proc.devRef .tc main_v44)) = _
  rw [w3_v40, w3_v27, w3_v41, w3_v42, w3_v45, w3_v46, w3_v43, w3_v44]
  exact (Cert.ReferenceIdeal.Join.bn128_join _ _ _ _ _ _ _ _ _ _).symm

/-! ### The second layer -/

/-- After region 2 the second projection holds the reference's. -/
theorem w5_v48 : W5 m ρ c (Proc.devRef .tc main_v48) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W5_arr m ρ c 2).trans ((K2.final (V4 m ρ) c).trans ?_)
  show MatProd.mm (W4 m ρ c (Proc.devRef .tc main_v47)) (W4 m ρ c (Proc.devRef .tc main_arg8)) = _
  rw [w4_v47, p4 m ρ c P_main_arg8, w1_arg8]
  exact (Cert.ReferenceIdeal.RefLayers.mm64 _ _ _ _ _ _ _ _ _).symm

theorem w6_v48 : W6 m ρ c (Proc.devRef .tc main_v48) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (keepH (W5 m ρ c) hostOps3 main_v48 (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (w5_v48 m ρ c)
theorem w6_v61 : W6 m ρ c (Proc.devRef .tc main_v61) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  h3_v61 (W5 m ρ c) _ _ _ _ _ _ _ _ _ (w5_v48 m ρ c) ((p5 m ρ c P_main_v1).trans (w1_v1 m ρ c)) ((p5 m ρ c P_main_v3).trans (w1_v3 m ρ c))
    ((p5 m ρ c P_main_v25).trans (w1_v25 m ρ c))
theorem w6_v62 : W6 m ρ c (Proc.devRef .tc main_v62) = shapeCast S100000x1 (val_main_v26 (F := Ideal) (m ((c : Thread nD τ).loc main_arg1))) shapeCasts_S100000_S100000x1 := by
  refine (h3_v62 (W5 m ρ c)).trans ?_
  rw [p5 m ρ c P_main_v26, w1_v26]
theorem w6_v63 : W6 m ρ c (Proc.devRef .tc main_v63) = shapeCast S1x64 (m ((c : Thread nD τ).loc main_arg9)) shapeCasts_S64_S1x64 := by
  refine (h3_v63 (W5 m ρ c)).trans ?_
  rw [p5 m ρ c P_main_arg9, w1_arg9]
theorem w6_v64 : W6 m ρ c (Proc.devRef .tc main_v64) = shapeCast S1x64 (m ((c : Thread nD τ).loc main_arg10)) shapeCasts_S64_S1x64 := by
  refine (h3_v64 (W5 m ρ c)).trans ?_
  rw [p5 m ρ c P_main_arg10, w1_arg10]
theorem w6_v65 : W6 m ρ c (Proc.devRef .tc main_v65) = shapeCast S1x64 (m ((c : Thread nD τ).loc main_arg11)) shapeCasts_S64_S1x64 := by
  refine (h3_v65 (W5 m ρ c)).trans ?_
  rw [p5 m ρ c P_main_arg11, w1_arg11]
theorem w6_v66 : W6 m ρ c (Proc.devRef .tc main_v66) = shapeCast S1x64 (m ((c : Thread nD τ).loc main_arg12)) shapeCasts_S64_S1x64 := by
  refine (h3_v66 (W5 m ρ c)).trans ?_
  rw [p5 m ρ c P_main_arg12, w1_arg12]
theorem w6_v67 : W6 m ρ c (Proc.devRef .tc main_v67) = shapeCast S1x64 (m ((c : Thread nD τ).loc main_arg13)) shapeCasts_S64_S1x64 := by
  refine (h3_v67 (W5 m ρ c)).trans ?_
  rw [p5 m ρ c P_main_arg13, w1_arg13]

/-- After region 3 the second layer's output holds the reference's. -/
theorem w7_v68 : W7 m ρ c (Proc.devRef .tc main_v68) = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W7_arr m ρ c 8).trans ((K3.final (V6 m ρ) c).trans ?_)
  show GcnEntry.bnArr (n := 100000) (k := 64) (W6 m ρ c (Proc.devRef .tc main_v61)) (W6 m ρ c (Proc.devRef .tc main_v48)) (W6 m ρ c (Proc.devRef .tc main_v62))
    (W6 m ρ c (Proc.devRef .tc main_v63)) (W6 m ρ c (Proc.devRef .tc main_v66)) (W6 m ρ c (Proc.devRef .tc main_v67)) (W6 m ρ c (Proc.devRef .tc main_v64)) (W6 m ρ c (Proc.devRef .tc main_v65)) = _
  rw [w6_v61, w6_v48, w6_v62, w6_v63, w6_v66, w6_v67, w6_v64, w6_v65]
  exact (Cert.ReferenceIdeal.Join.bn64_join _ _ _ _ _ _ _ _ _ _ _ _ _ _ _ _).symm

/-! ### The residual and the last layer -/

/-- The first layer's output is still in place after regions 2 and 3. -/
theorem w7_v47 : W7 m ρ c (Proc.devRef .tc main_v47) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (keep3 m ρ c main_v47 (by decide)).trans ((keepH (W5 m ρ c) hostOps3 main_v47 (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((keep2 m ρ c main_v47 (by decide)).trans (w4_v47 m ρ c)))

theorem w8_v70 : W8 m ρ c (Proc.devRef .tc main_v70) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  h4_v70 (W7 m ρ c) _ _ _ _ _ _ _ _ _ _ _ _ _ _ (w7_v47 m ρ c) (w7_v68 m ρ c)

/-- After region 4 the third projection holds the reference's. -/
theorem w9_v71 : W9 m ρ c (Proc.devRef .tc main_v71) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W9_arr m ρ c 2).trans ((K4.final (V8 m ρ) c).trans ?_)
  show MatProd.mm (W8 m ρ c (Proc.devRef .tc main_v70)) (W8 m ρ c (Proc.devRef .tc main_arg14)) = _
  rw [w8_v70, p8 m ρ c P_main_arg14, w1_arg14]
  exact (Cert.ReferenceIdeal.RefLayers.mm103 _ _ _ _ _ _ _ _ _ _ _ _ _ _ _).symm

theorem w10_v71 : W10 m ρ c (Proc.devRef .tc main_v71) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (keepH (W9 m ρ c) hostOps5 main_v71 (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (w9_v71 m ρ c)
theorem w10_v84 : W10 m ρ c (Proc.devRef .tc main_v84) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  h5_v84 (W9 m ρ c) _ _ _ _ _ _ _ _ _ _ _ _ _ _ _ (w9_v71 m ρ c) ((p9 m ρ c P_main_v1).trans (w1_v1 m ρ c)) ((p9 m ρ c P_main_v3).trans (w1_v3 m ρ c))
    ((p9 m ρ c P_main_v25).trans (w1_v25 m ρ c))
theorem w10_v85 : W10 m ρ c (Proc.devRef .tc main_v85) = shapeCast S100000x1 (val_main_v26 (F := Ideal) (m ((c : Thread nD τ).loc main_arg1))) shapeCasts_S100000_S100000x1 := by
  refine (h5_v85 (W9 m ρ c)).trans ?_
  rw [p9 m ρ c P_main_v26, w1_v26]
theorem w10_v86 : W10 m ρ c (Proc.devRef .tc main_v86) = shapeCast S1x2 (m ((c : Thread nD τ).loc main_arg15)) shapeCasts_S2_S1x2 := by
  refine (h5_v86 (W9 m ρ c)).trans ?_
  rw [p9 m ρ c P_main_arg15, w1_arg15]

/-- THE RESULT: at the last boundary the result array holds the reference's last stage of the launch arrays. -/
theorem result : W11 m ρ c (Proc.devRef .tc main_v87) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W11_arr m ρ c 4).trans ((K5.final (V10 m ρ) c).trans ?_)
  show GcnEntry.finArr (n := 100000) (k := 2) (W10 m ρ c (Proc.devRef .tc main_v84)) (W10 m ρ c (Proc.devRef .tc main_v71)) (W10 m ρ c (Proc.devRef .tc main_v85)) (W10 m ρ c (Proc.devRef .tc main_v86)) = _
  rw [w10_v84, w10_v71, w10_v85, w10_v86]
  exact (Cert.ReferenceIdeal.Join.fin_join _ _ _ _ _ _ _ _ _ _ _ _ _ _ _ _ _ _).symm

end Cert.KernelIdeal.Walk

end
-- ==== Proof.lean ====
/-
  A three-layer graph convolution network, computed two ways, gives the same log-probabilities.

  Both programs first compute, from the edge list, each node's degree (a scatter-add of ones, plus one for the self
  loop), its reciprocal square root, the weight of every edge (the product of its two ends' values) and of every self
  loop.  Each layer then projects the node features by a weight matrix, gathers the projected rows along the edges,
  scales them by the edge weights and scatter-adds them to the destination nodes, adds the node's own projected row
  times its self-loop weight, and adds a bias.  The first two layers go on with batch normalisation by running
  statistics and a clamp at zero; the input of the third layer is the second layer's output plus the first 64 columns
  of the first layer's output; the third layer ends with the logarithm of the softmax along each row.

  The reference does all of this with whole-array host operations.  The other program does the three projections and
  the three post-aggregation chains in tiled regions, a band of 2000 rows of the 100000 nodes at a time, and keeps the
  gathers and scatter-adds as host operations, the same ones as the reference's.  On extended reals the two agree
  stage by stage: a band of a matrix product is the product of the band (an entry reads one row of the left factor),
  the post-aggregation chains work row by row, a change of float format is the identity, the matrix unit's product
  onto a zero accumulator and the host's product are the same sums, a lane reduction and a host reduction of a row are
  the same sum and the same maximum.  No law that needs finite values is used: the two sides are the same operations
  on the same entries in the same order, only tiled differently; so the precondition is not opened.

  The frames of the two tiled programs are the generated ones; the reference's frame is its run with the result
  dropped; nothing was rewritten between the word-level program and its idealization, so that conjunct is trivial.
-/
import proofs.«120428_j80255758893109_1_alg».proof.Defs
import proofs.«120428_j80255758893109_1_alg».proof.Proof.Gen.Kernel
import proofs.«120428_j80255758893109_1_alg».proof.Proof.Gen.Kernel.Frame
import proofs.«120428_j80255758893109_1_alg».proof.Proof.Gen.KernelIdeal
import proofs.«120428_j80255758893109_1_alg».proof.Proof.Gen.KernelIdeal.Frame
import proofs.«120428_j80255758893109_1_alg».proof.Proof.Gen.ReferenceIdeal
import proofs.«120428_j80255758893109_1_alg».proof.Proof.Gen.Pre_finite_inputs
import proofs.«120428_j80255758893109_1_alg».proof.Proof.KRun
import proofs.«120428_j80255758893109_1_alg».proof.Proof.Walk
import proofs.«120428_j80255758893109_1_alg».proof.Proof.RefRun
import proofs.«120428_j80255758893109_1_alg».proof.Proof.RefRead
import proofs.«120428_j80255758893109_1_alg».proof.Proof.RefReadEq
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten between the word-level program and its idealization. -/
theorem preserves : Cert.preserves_Kernel_KernelIdeal := trivial

/-- Both programs end with the reference's last stage of the launch arrays in their result array. -/
theorem algebraic : Cert.algebraic_KernelIdeal_ReferenceIdeal := by
  intro m ρ m' ρ' _ hagree
  refine ⟨fun c => Cert.KernelIdeal.Gen.W11 m ρ c (Proc.devRef .tc Cert.KernelIdeal.main_v87),
    Cert.KernelIdeal.GenP.run (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v124 m' c
    = Cert.KernelIdeal.Gen.W11 m ρ c (Proc.devRef .tc Cert.KernelIdeal.main_v87)
  rw [Cert.ReferenceIdeal.ReadP.val_main_v124_eq m' c, Cert.KernelIdeal.Walk.result m ρ c,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
